-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v69)) (v2 : (c : Dev Cert.KernelIdeal.nD) → Buf (Elt Ideal) ((c.tc : Thread Cert.KernelIdeal.nD Cert.KernelIdeal.τ).loc Cert.KernelIdeal.main_v122)) (v3 : (c : Dev Cert.KernelIdeal.nD) → Buf (Elt Ideal) ((c.tc : Thread Cert.KernelIdeal.nD Cert.KernelIdeal.τ).loc Cert.KernelIdeal.main_v139)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v69) = v1 c
          ∧ r.2.mem ((c.tc : Thread Cert.KernelIdeal.nD Cert.KernelIdeal.τ).loc Cert.KernelIdeal.main_v122) = v2 c
          ∧ r.2.mem ((c.tc : Thread Cert.KernelIdeal.nD Cert.KernelIdeal.τ).loc Cert.KernelIdeal.main_v139) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v122) = v2 c
          ∧ r.2.mem ((c.tc : Thread Cert.ReferenceIdeal.nD Cert.ReferenceIdeal.τ).loc Cert.ReferenceIdeal.main_v139) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S1600000 : Shape := ⟨1, ![1600000]⟩
abbrev S512x128 : Shape := ⟨2, ![512, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg9 : FVec F S128x64 .f32) (main_arg10 : FVec F S64 .f32) (main_arg11 : FVec F S128x64 .f32) (main_arg12 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x64 .f32) (main_arg10 : FVec F S64 .f32) (main_arg11 : FVec F S128x64 .f32) (main_arg12 : FVec F S64 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x512 .f32) (main_arg1 : FVec F S50000x512 .f32) (main_arg2 : IVec S1600000 32) (main_arg3 : IVec S1600000 32) (main_arg4 : FVec F S1600000 .f32) (main_arg5 : FVec F S512x128 .f32) (main_arg6 : FVec F S128 .f32) (main_arg7 : FVec F S128x128 .f32) (main_arg8 : FVec F S128 .f32) (main_arg9 : FVec F S128x64 .f32) (main_arg10 : FVec F S64 .f32) (main_arg11 : FVec F S128x64 .f32) (main_arg12 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S50000x512 .f32 := Host.absf main_arg1
  let main_cst_0 : FVec F S_ .f32 := constant S_ .f32 0x7F800000#32
  let main_v5 : FVec F S50000x512 .f32 := broadcastInDim S50000x512 ![] bcast_S_S50000x512 main_cst_0
  let main_v6 : IVec S50000x512 1 := cmpf .olt main_v4 main_v5
  let main_c_1 : IVec S_ 1 := constantI S_ 1 1#1
  let main_v7 : IVec S_ 1 := (fun x v => Host.reduce IntOp.andi x v reducesTo_S50000x512_S_d0_1 h_S_) main_v6 main_c_1
  let main_v8 : IVec S_ 1 := andi main_v3 main_v7
  let main_v9 : FVec F S1600000 .f32 := Host.absf main_arg4
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S512x128 .f32 := Host.absf main_arg5
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg6 main_arg7 main_arg8 main_arg9 main_arg10 main_arg11 main_arg12 main_v13 main_v16
-- ==== Kernel.lean ====
abbrev S50000x512 : Shape := ⟨2, ![50000, 512]⟩
abbrev S1600000 : Shape := ⟨1, ![1600000]⟩
abbrev S512x128 : Shape := ⟨2, ![512, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S50000x128 : Shape := ⟨2, ![50000, 128]⟩
abbrev S5000x512 : Shape := ⟨2, ![5000, 512]⟩
abbrev S5000x128 : Shape := ⟨2, ![5000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S50000x64 : Shape := ⟨2, ![50000, 64]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 185
  | .vmem => 40
  | .smem => 0
  | _ => 0

abbrev hbmTy0_0 (i : Nat) : BufTy := match i % 128 with
  | 0 => ⟨S50000x512, .f32⟩
  | 1 => ⟨S50000x512, .f32⟩
  | 2 => ⟨S1600000, .i32⟩
  | 3 => ⟨S1600000, .i32⟩
  | 4 => ⟨S1600000, .f32⟩
  | 5 => ⟨S512x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S128x64, .f32⟩
  | 12 => ⟨S64, .f32⟩
  | 13 => ⟨S50000x128, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000x128, .f32⟩
  | 23 => ⟨S1600000x1, .f32⟩
  | 24 => ⟨S1600000x128, .f32⟩
  | 25 => ⟨S1600000x128, .f32⟩
  | 26 => ⟨S_, .f32⟩
  | 27 => ⟨S50000x128, .f32⟩
  | 28 => ⟨S1600000x1, .i32⟩
  | 29 => ⟨S50000x128, .f32⟩
  | 30 => ⟨S1x128, .f32⟩
  | 31 => ⟨S50000x128, .f32⟩
  | 32 => ⟨S50000x128, .f32⟩
  | 33 => ⟨S_, .f32⟩
  | 34 => ⟨S50000x128, .f32⟩
  | 35 => ⟨S50000x128, .f32⟩
  | 36 => ⟨S50000x128, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x128, .f32⟩
  | 46 => ⟨S1600000x1, .f32⟩
  | 47 => ⟨S1600000x128, .f32⟩
  | 48 => ⟨S1600000x128, .f32⟩
  | 49 => ⟨S_, .f32⟩
  | 50 => ⟨S50000x128, .f32⟩
  | 51 => ⟨S1600000x1, .i32⟩
  | 52 => ⟨S50000x128, .f32⟩
  | 53 => ⟨S1x128, .f32⟩
  | 54 => ⟨S50000x128, .f32⟩
  | 55 => ⟨S50000x128, .f32⟩
  | 56 => ⟨S_, .f32⟩
  | 57 => ⟨S50000x128, .f32⟩
  | 58 => ⟨S50000x128, .f32⟩
  | 59 => ⟨S50000x64, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x64, .f32⟩
  | 69 => ⟨S1600000x1, .f32⟩
  | 70 => ⟨S1600000x64, .f32⟩
  | 71 => ⟨S1600000x64, .f32⟩
  | 72 => ⟨S_, .f32⟩
  | 73 => ⟨S50000x64, .f32⟩
  | 74 => ⟨S1600000x1, .i32⟩
  | 75 => ⟨S50000x64, .f32⟩
  | 76 => ⟨S1x64, .f32⟩
  | 77 => ⟨S50000x64, .f32⟩
  | 78 => ⟨S50000x64, .f32⟩
  | 79 => ⟨S50000x64, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x64, .f32⟩
  | 89 => ⟨S1600000x1, .f32⟩
  | 90 => ⟨S1600000x64, .f32⟩
  | 91 => ⟨S1600000x64, .f32⟩
  | 92 => ⟨S_, .f32⟩
  | 93 => ⟨S50000x64, .f32⟩
  | 94 => ⟨S1600000x1, .i32⟩
  | 95 => ⟨S50000x64, .f32⟩
  | 96 => ⟨S1x64, .f32⟩
  | 97 => ⟨S50000x64, .f32⟩
  | 98 => ⟨S50000x64, .f32⟩
  | 99 => ⟨S50000x128, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x128, .f32⟩
  | 109 => ⟨S1600000x1, .f32⟩
  | 110 => ⟨S1600000x128, .f32⟩
  | 111 => ⟨S1600000x128, .f32⟩
  | 112 => ⟨S_, .f32⟩
  | 113 => ⟨S50000x128, .f32⟩
  | 114 => ⟨S1600000x1, .i32⟩
  | 115 => ⟨S50000x128, .f32⟩
  | 116 => ⟨S1x128, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S50000x128, .f32⟩
  | 123 => ⟨S_, .i32⟩
  | 124 => ⟨S1600000, .i32⟩
  | 125 => ⟨S1600000, .i1⟩
  | 126 => ⟨S_, .i32⟩
  | 127 => ⟨S1600000, .i32⟩
  | _ => ⟨S50000x512, .f32⟩

abbrev hbmTy0_1 (i : Nat) : BufTy := match i % 128 with
  | 0 => ⟨S1600000, .i32⟩
  | 1 => ⟨S1600000, .i32⟩
  | 2 => ⟨S1600000x1, .i32⟩
  | 3 => ⟨S1600000x128, .f32⟩
  | 4 => ⟨S1600000x1, .f32⟩
  | 5 => ⟨S1600000x128, .f32⟩
  | 6 => ⟨S1600000x128, .f32⟩
  | 7 => ⟨S_, .f32⟩
  | 8 => ⟨S50000x128, .f32⟩
  | 9 => ⟨S1600000x1, .i32⟩
  | 10 => ⟨S50000x128, .f32⟩
  | 11 => ⟨S1x128, .f32⟩
  | 12 => ⟨S50000x128, .f32⟩
  | 13 => ⟨S50000x128, .f32⟩
  | 14 => ⟨S_, .f32⟩
  | 15 => ⟨S50000x128, .f32⟩
  | 16 => ⟨S50000x128, .f32⟩
  | 17 => ⟨S50000x64, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x64, .f32⟩
  | 27 => ⟨S1600000x1, .f32⟩
  | 28 => ⟨S1600000x64, .f32⟩
  | 29 => ⟨S1600000x64, .f32⟩
  | 30 => ⟨S_, .f32⟩
  | 31 => ⟨S50000x64, .f32⟩
  | 32 => ⟨S1600000x1, .i32⟩
  | 33 => ⟨S50000x64, .f32⟩
  | 34 => ⟨S1x64, .f32⟩
  | 35 => ⟨S50000x64, .f32⟩
  | 36 => ⟨S50000x64, .f32⟩
  | 37 => ⟨S50000x64, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x64, .f32⟩
  | 47 => ⟨S1600000x1, .f32⟩
  | 48 => ⟨S1600000x64, .f32⟩
  | 49 => ⟨S1600000x64, .f32⟩
  | 50 => ⟨S_, .f32⟩
  | 51 => ⟨S50000x64, .f32⟩
  | 52 => ⟨S1600000x1, .i32⟩
  | 53 => ⟨S50000x64, .f32⟩
  | 54 => ⟨S1x64, .f32⟩
  | 55 => ⟨S50000x64, .f32⟩
  | 56 => ⟨S50000x64, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S5000x512, .f32⟩
  | .local _ .vmem, ⟨1, _⟩ => ⟨S5000x512, .f32⟩
  | .local _ .vmem, ⟨2, _⟩ => ⟨S512x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x128, .f32⟩
  | .local _ .vmem, ⟨16, _⟩ => ⟨S5000x128, .f32⟩
  | .local _ .vmem, ⟨17, _⟩ => ⟨S128x64, .f32⟩
  | .local _ .vmem, ⟨18, _⟩ => ⟨S5000x64, .f32⟩
  | .local _ .vmem, ⟨19, _⟩ => ⟨S5000x64, .f32⟩
  | .local _ .vmem, ⟨20, _⟩ => ⟨S5000x512, .f32⟩
  | .local _ .vmem, ⟨21, _⟩ => ⟨S5000x512, .f32⟩
  | .local _ .vmem, ⟨22, _⟩ => ⟨S512x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S128x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x64, .f32⟩
  | .local _ .vmem, ⟨33, _⟩ => ⟨S5000x64, .f32⟩
  | .local _ .vmem, ⟨34, _⟩ => ⟨S5000x64, .f32⟩
  | .local _ .vmem, ⟨35, _⟩ => ⟨S5000x128, .f32⟩
  | .local _ .vmem, ⟨36, _⟩ => ⟨S5000x128, .f32⟩
  | .local _ .vmem, ⟨37, _⟩ => ⟨S128x64, .f32⟩
  | .local _ .vmem, ⟨38, _⟩ => ⟨S5000x64, .f32⟩
  | .local _ .vmem, ⟨39, _⟩ => ⟨S5000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call0_cst : Ref sig .tc := ⟨.hbm, 33, rfl⟩
abbrev main_call0_v0 : Ref sig .tc := ⟨.hbm, 34, rfl⟩
abbrev main_v17 : Ref sig .tc := ⟨.hbm, 35, rfl⟩
abbrev main_v18 : Ref sig .tc := ⟨.hbm, 36, rfl⟩
abbrev main_c_1 : Ref sig .tc := ⟨.hbm, 37, rfl⟩
abbrev main_v19 : Ref sig .tc := ⟨.hbm, 38, rfl⟩
abbrev main_v20 : Ref sig .tc := ⟨.hbm, 39, rfl⟩
abbrev main_c_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_call1_cst : Ref sig .tc := ⟨.hbm, 56, rfl⟩
abbrev main_call1_v0 : Ref sig .tc := ⟨.hbm, 57, rfl⟩
abbrev main_v35 : Ref sig .tc := ⟨.hbm, 58, rfl⟩
abbrev main_v36 : Ref sig .tc := ⟨.hbm, 59, rfl⟩
abbrev main_c_4 : Ref sig .tc := ⟨.hbm, 60, rfl⟩
abbrev main_v37 : Ref sig .tc := ⟨.hbm, 61, rfl⟩
abbrev main_v38 : Ref sig .tc := ⟨.hbm, 62, rfl⟩
abbrev main_c_5 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_7 : Ref sig .tc := ⟨.hbm, 80, rfl⟩
abbrev main_v54 : Ref sig .tc := ⟨.hbm, 81, rfl⟩
abbrev main_v55 : Ref sig .tc := ⟨.hbm, 82, rfl⟩
abbrev main_c_8 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_9 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_10 : Ref sig .tc := ⟨.hbm, 100, rfl⟩
abbrev main_v71 : Ref sig .tc := ⟨.hbm, 101, rfl⟩
abbrev main_v72 : Ref sig .tc := ⟨.hbm, 102, rfl⟩
abbrev main_c_11 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_12 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_call2_cst : Ref sig .tc := ⟨.hbm, 119, rfl⟩
abbrev main_call2_v0 : Ref sig .tc := ⟨.hbm, 120, rfl⟩
abbrev main_v87 : Ref sig .tc := ⟨.hbm, 121, rfl⟩
abbrev main_v88 : Ref sig .tc := ⟨.hbm, 122, rfl⟩
abbrev main_c_13 : Ref sig .tc := ⟨.hbm, 123, rfl⟩
abbrev main_v89 : Ref sig .tc := ⟨.hbm, 124, rfl⟩
abbrev main_v90 : Ref sig .tc := ⟨.hbm, 125, rfl⟩
abbrev main_c_14 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_15 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_call3_cst : Ref sig .tc := ⟨.hbm, 142, rfl⟩
abbrev main_call3_v0 : Ref sig .tc := ⟨.hbm, 143, rfl⟩
abbrev main_v105 : Ref sig .tc := ⟨.hbm, 144, rfl⟩
abbrev main_v106 : Ref sig .tc := ⟨.hbm, 145, rfl⟩
abbrev main_c_16 : Ref sig .tc := ⟨.hbm, 146, rfl⟩
abbrev main_v107 : Ref sig .tc := ⟨.hbm, 147, rfl⟩
abbrev main_v108 : Ref sig .tc := ⟨.hbm, 148, rfl⟩
abbrev main_c_17 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_18 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_c_19 : Ref sig .tc := ⟨.hbm, 166, rfl⟩
abbrev main_v124 : Ref sig .tc := ⟨.hbm, 167, rfl⟩
abbrev main_v125 : Ref sig .tc := ⟨.hbm, 168, rfl⟩
abbrev main_c_20 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_cst_21 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S5000x128_S5000x128_0_0 : ∀ a, (![0, 0] : Fin 2 → Nat) a + S5000x128.size a ≤ S5000x128.size a
  h_S5000x128 : 0 < S5000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S5000x512_S512x128_S5000x128_1_0_0_1_n_n_wf : DotDims.WF S5000x512 S512x128 S5000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x512.size a ≤ S50000x512.size a
  hwx4_0 : ∀ i : grid4.Coords, EltTy.bits .f32 = 32 ∨ (Rect.block (s := S50000x512) S5000x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x128.size a ≤ S512x128.size a
  hwx4_1 : ∀ i : grid4.Coords, EltTy.bits .f32 = 32 ∨ (Rect.block (s := S512x128) S512x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S50000x64.size a
  hwx6_2 : ∀ i : grid6.Coords, EltTy.bits .f32 = 32 ∨ (Rect.block (s := S50000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x64.size a ≤ S128x64.size a
  hwx7_1 : ∀ i : grid7.Coords, EltTy.bits .f32 = 32 ∨ (Rect.block (s := S128x64) S128x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S50000x64.size a
  hwx7_2 : ∀ i : grid7.Coords, EltTy.bits .f32 = 32 ∨ (Rect.block (s := S50000x64) S5000x64.size (cc7_transform_2 i) (hinb7_2 i)).WholeWords (EltTy.packing .f32)

variable [Facts₀]

def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v35) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v35) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg1) S5000x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S512x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v70) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v87) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v88) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v105) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v106) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v105) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg11) S128x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v123) S5000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S50000x512 : Shape := ⟨2, ![50000, 512]⟩
abbrev S1600000 : Shape := ⟨1, ![1600000]⟩
abbrev S512x128 : Shape := ⟨2, ![512, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S50000x128 : Shape := ⟨2, ![50000, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S50000x64 : Shape := ⟨2, ![50000, 64]⟩
abbrev S1600000x64 : Shape := ⟨2, ![1600000, 64]⟩
abbrev S1x64 : Shape := ⟨2, ![1, 64]⟩

abbrev nBuf : Space → Nat
  | .hbm => 185
  | .vmem => 0
  | .smem => 0
  | _ => 0

abbrev hbmTy0_0 (i : Nat) : BufTy := match i % 128 with
  | 0 => ⟨S50000x512, .f32⟩
  | 1 => ⟨S50000x512, .f32⟩
  | 2 => ⟨S1600000, .i32⟩
  | 3 => ⟨S1600000, .i32⟩
  | 4 => ⟨S1600000, .f32⟩
  | 5 => ⟨S512x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S128x64, .f32⟩
  | 12 => ⟨S64, .f32⟩
  | 13 => ⟨S50000x128, .f32⟩
  | 14 => ⟨S1600000x1, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x128, .f32⟩
  | 24 => ⟨S1600000x128, .f32⟩
  | 25 => ⟨S1600000x128, .f32⟩
  | 26 => ⟨S_, .f32⟩
  | 27 => ⟨S50000x128, .f32⟩
  | 28 => ⟨S1600000x1, .i32⟩
  | 29 => ⟨S50000x128, .f32⟩
  | 30 => ⟨S1x128, .f32⟩
  | 31 => ⟨S50000x128, .f32⟩
  | 32 => ⟨S50000x128, .f32⟩
  | 33 => ⟨S_, .f32⟩
  | 34 => ⟨S50000x128, .f32⟩
  | 35 => ⟨S50000x128, .f32⟩
  | 36 => ⟨S50000x128, .f32⟩
  | 37 => ⟨S1600000x1, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x128, .f32⟩
  | 47 => ⟨S1600000x128, .f32⟩
  | 48 => ⟨S1600000x128, .f32⟩
  | 49 => ⟨S_, .f32⟩
  | 50 => ⟨S50000x128, .f32⟩
  | 51 => ⟨S1600000x1, .i32⟩
  | 52 => ⟨S50000x128, .f32⟩
  | 53 => ⟨S1x128, .f32⟩
  | 54 => ⟨S50000x128, .f32⟩
  | 55 => ⟨S50000x128, .f32⟩
  | 56 => ⟨S_, .f32⟩
  | 57 => ⟨S50000x128, .f32⟩
  | 58 => ⟨S50000x128, .f32⟩
  | 59 => ⟨S50000x64, .f32⟩
  | 60 => ⟨S1600000x1, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x64, .f32⟩
  | 70 => ⟨S1600000x64, .f32⟩
  | 71 => ⟨S1600000x64, .f32⟩
  | 72 => ⟨S_, .f32⟩
  | 73 => ⟨S50000x64, .f32⟩
  | 74 => ⟨S1600000x1, .i32⟩
  | 75 => ⟨S50000x64, .f32⟩
  | 76 => ⟨S1x64, .f32⟩
  | 77 => ⟨S50000x64, .f32⟩
  | 78 => ⟨S50000x64, .f32⟩
  | 79 => ⟨S50000x64, .f32⟩
  | 80 => ⟨S1600000x1, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x64, .f32⟩
  | 90 => ⟨S1600000x64, .f32⟩
  | 91 => ⟨S1600000x64, .f32⟩
  | 92 => ⟨S_, .f32⟩
  | 93 => ⟨S50000x64, .f32⟩
  | 94 => ⟨S1600000x1, .i32⟩
  | 95 => ⟨S50000x64, .f32⟩
  | 96 => ⟨S1x64, .f32⟩
  | 97 => ⟨S50000x64, .f32⟩
  | 98 => ⟨S50000x64, .f32⟩
  | 99 => ⟨S50000x128, .f32⟩
  | 100 => ⟨S1600000x1, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x128, .f32⟩
  | 110 => ⟨S1600000x128, .f32⟩
  | 111 => ⟨S1600000x128, .f32⟩
  | 112 => ⟨S_, .f32⟩
  | 113 => ⟨S50000x128, .f32⟩
  | 114 => ⟨S1600000x1, .i32⟩
  | 115 => ⟨S50000x128, .f32⟩
  | 116 => ⟨S1x128, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S50000x128, .f32⟩
  | 123 => ⟨S1600000x1, .f32⟩
  | 124 => ⟨S_, .i32⟩
  | 125 => ⟨S1600000, .i32⟩
  | 126 => ⟨S1600000, .i1⟩
  | 127 => ⟨S_, .i32⟩
  | _ => ⟨S50000x512, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000x128, .f32⟩
  | 5 => ⟨S1600000x128, .f32⟩
  | 6 => ⟨S1600000x128, .f32⟩
  | 7 => ⟨S_, .f32⟩
  | 8 => ⟨S50000x128, .f32⟩
  | 9 => ⟨S1600000x1, .i32⟩
  | 10 => ⟨S50000x128, .f32⟩
  | 11 => ⟨S1x128, .f32⟩
  | 12 => ⟨S50000x128, .f32⟩
  | 13 => ⟨S50000x128, .f32⟩
  | 14 => ⟨S_, .f32⟩
  | 15 => ⟨S50000x128, .f32⟩
  | 16 => ⟨S50000x128, .f32⟩
  | 17 => ⟨S50000x64, .f32⟩
  | 18 => ⟨S1600000x1, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x64, .f32⟩
  | 28 => ⟨S1600000x64, .f32⟩
  | 29 => ⟨S1600000x64, .f32⟩
  | 30 => ⟨S_, .f32⟩
  | 31 => ⟨S50000x64, .f32⟩
  | 32 => ⟨S1600000x1, .i32⟩
  | 33 => ⟨S50000x64, .f32⟩
  | 34 => ⟨S1x64, .f32⟩
  | 35 => ⟨S50000x64, .f32⟩
  | 36 => ⟨S50000x64, .f32⟩
  | 37 => ⟨S50000x64, .f32⟩
  | 38 => ⟨S1600000x1, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x64, .f32⟩
  | 48 => ⟨S1600000x64, .f32⟩
  | 49 => ⟨S1600000x64, .f32⟩
  | 50 => ⟨S_, .f32⟩
  | 51 => ⟨S50000x64, .f32⟩
  | 52 => ⟨S1600000x1, .i32⟩
  | 53 => ⟨S50000x64, .f32⟩
  | 54 => ⟨S1x64, .f32⟩
  | 55 => ⟨S50000x64, .f32⟩
  | 56 => ⟨S50000x64, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call0_cst : Ref sig .tc := ⟨.hbm, 33, rfl⟩
abbrev main_call0_v0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_1 : Ref sig .tc := ⟨.hbm, 38, rfl⟩
abbrev main_v20 : Ref sig .tc := ⟨.hbm, 39, rfl⟩
abbrev main_v21 : Ref sig .tc := ⟨.hbm, 40, rfl⟩
abbrev main_c_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_call1_cst : Ref sig .tc := ⟨.hbm, 56, rfl⟩
abbrev main_call1_v0 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_4 : Ref sig .tc := ⟨.hbm, 61, rfl⟩
abbrev main_v38 : Ref sig .tc := ⟨.hbm, 62, rfl⟩
abbrev main_v39 : Ref sig .tc := ⟨.hbm, 63, rfl⟩
abbrev main_c_5 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_7 : Ref sig .tc := ⟨.hbm, 81, rfl⟩
abbrev main_v55 : Ref sig .tc := ⟨.hbm, 82, rfl⟩
abbrev main_v56 : Ref sig .tc := ⟨.hbm, 83, rfl⟩
abbrev main_c_8 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_9 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_10 : Ref sig .tc := ⟨.hbm, 101, rfl⟩
abbrev main_v72 : Ref sig .tc := ⟨.hbm, 102, rfl⟩
abbrev main_v73 : Ref sig .tc := ⟨.hbm, 103, rfl⟩
abbrev main_c_11 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_12 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_call2_cst : Ref sig .tc := ⟨.hbm, 119, rfl⟩
abbrev main_call2_v0 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_c_13 : Ref sig .tc := ⟨.hbm, 124, rfl⟩
abbrev main_v90 : Ref sig .tc := ⟨.hbm, 125, rfl⟩
abbrev main_v91 : Ref sig .tc := ⟨.hbm, 126, rfl⟩
abbrev main_c_14 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_15 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_call3_cst : Ref sig .tc := ⟨.hbm, 142, rfl⟩
abbrev main_call3_v0 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_c_16 : Ref sig .tc := ⟨.hbm, 147, rfl⟩
abbrev main_v108 : Ref sig .tc := ⟨.hbm, 148, rfl⟩
abbrev main_v109 : Ref sig .tc := ⟨.hbm, 149, rfl⟩
abbrev main_c_17 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_18 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_c_19 : Ref sig .tc := ⟨.hbm, 167, rfl⟩
abbrev main_v125 : Ref sig .tc := ⟨.hbm, 168, rfl⟩
abbrev main_v126 : Ref sig .tc := ⟨.hbm, 169, rfl⟩
abbrev main_c_20 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_cst_21 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x512_S512x128_S50000x128_1_0_0_1_n_n_wf : DotDims.WF S50000x512 S512x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

class Facts : Prop extends Facts₀ where

variable [Facts]
-- ==== Proof.WholeRun.lean ====
/-
  The whole run of the eight products and the host operations between them, with every buffer read at the end: every weakly
  fair execution terminates, nothing faults, and every buffer that outlives the regions ends at the contents the fold of
  the twenty segments leaves in it (a host stretch applies its operations to what it finds; a region replaces its result
  array by what its ten write-backs leave and keeps every other buffer).  The results are read off this fold.
-/
import proofs.«162428_j26061861552728_1_alg».proof.Proof.Gen.KernelIdeal.Frame

set_option maxRecDepth 16384

noncomputable section

namespace Cert.KernelIdeal.WholeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer that outlives the regions ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W20 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h => h)

/-- A named buffer of the program at the end of the run. -/
theorem read_at {r : PUnit × MemSt nD τ sig (Elt F)} (h : ∀ c : Dev nD, ∀ b ∈ Pipeline.ucRefs τ sig, r.2.mem (((c : Thread nD τ)).1, b) = W20 m ρ c b)
    (c : Dev nD) (b : Ref sig .tc) (hb : ¬ (Proc.devRef .tc b : DevRef τ sig).isScoped) :
    r.2.mem ((c.tc : Thread nD τ).loc b) = W20 m ρ c (Proc.devRef .tc b) :=
  h c _ (mem_uc b hb)

end Cert.KernelIdeal.WholeRun

end
-- ==== Proof.HostKeep.lean ====
/-
  Which buffers each stretch of host operations between two products writes, and that every other buffer keeps its
  contents across the stretch: a stretch writes only the values it defines (the intermediate arrays of one layer's
  aggregation, or of one clamp at zero), never an argument array and never an earlier layer's result.
-/
import proofs.«162428_j26061861552728_1_alg».proof.Proof.Gen.KernelIdeal.Launch
import Idealize.ShloMosaic.Lib.StableHlo.Run

noncomputable section

namespace Cert.KernelIdeal.HostKeep

open Idealize.ShloMosaic Idealize.ShloMosaic.TcCoe Idealize.SL.Sem
open Cert.KernelIdeal Cert.KernelIdeal.Gen

variable {F : FTy → Type} [FloatOps F]

/-- The buffers stretch 1 defines. -/
abbrev written1 : List (Ref sig .tc) := [main_c, main_v1, main_v2, main_c_0, main_v3, main_v4, main_v5, main_v6, main_v7, main_v8, main_v9, main_v10, main_cst, main_v11, main_v12, main_v13, main_v14, main_v15, main_v16]
theorem writes1 : (hostOps1 : List (HloOp τ sig (Elt F))).Forall fun op => op.writes ⊆ (written1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 1 does not define keeps its contents across it. -/
theorem keep1 (W : Valuation τ sig (Elt F)) (r : Ref sig .tc) (h : r ∉ written1) :
    StableHlo.after hostOps1 W (Proc.devRef .tc r) = W (Proc.devRef .tc r) :=
  StableHlo.after_of_writes_sub hostOps1 W writes1 h

/-- The buffers stretch 1_1 defines. -/
abbrev written1_1 : List (Ref sig .tc) := [main_call0_cst, main_call0_v0, main_v17]
theorem writes1_1 : (hostOps1_1 : List (HloOp τ sig (Elt F))).Forall fun op => op.writes ⊆ (written1_1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 1_1 does not define keeps its contents across it. -/
theorem keep1_1 (W : Valuation τ sig (Elt F)) (r : Ref sig .tc) (h : r ∉ written1_1) :
    StableHlo.after hostOps1_1 W (Proc.devRef .tc r) = W (Proc.devRef .tc r) :=
  StableHlo.after_of_writes_sub hostOps1_1 W writes1_1 h

/-- The buffers stretch 2 defines. -/
abbrev written2 : List (Ref sig .tc) := [main_c_1, main_v19, main_v20, main_c_2, main_v21, main_v22, main_v23, main_v24, main_v25, main_v26, main_v27, main_v28, main_cst_3, main_v29, main_v30, main_v31, main_v32, main_v33, main_v34]
theorem writes2 : (hostOps2 : List (HloOp τ sig (Elt F))).Forall fun op => op.writes ⊆ (written2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 2 does not define keeps its contents across it. -/
theorem keep2 (W : Valuation τ sig (Elt F)) (r : Ref sig .tc) (h : r ∉ written2) :
    StableHlo.after hostOps2 W (Proc.devRef .tc r) = W (Proc.devRef .tc r) :=
  StableHlo.after_of_writes_sub hostOps2 W writes2 h

/-- The buffers stretch 2_1 defines. -/
abbrev written2_1 : List (Ref sig .tc) := [main_call1_cst, main_call1_v0, main_v35]
theorem writes2_1 : (hostOps2_1 : List (HloOp τ sig (Elt F))).Forall fun op => op.writes ⊆ (written2_1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 2_1 does not define keeps its contents across it. -/
theorem keep2_1 (W : Valuation τ sig (Elt F)) (r : Ref sig .tc) (h : r ∉ written2_1) :
    StableHlo.after hostOps2_1 W (Proc.devRef .tc r) = W (Proc.devRef .tc r) :=
  StableHlo.after_of_writes_sub hostOps2_1 W writes2_1 h

/-- The buffers stretch 3 defines. -/
abbrev written3 : List (Ref sig .tc) := [main_c_4, main_v37, main_v38, main_c_5, main_v39, main_v40, main_v41, main_v42, main_v43, main_v44, main_v45, main_v46, main_cst_6, main_v47, main_v48, main_v49, main_v50, main_v51, main_v52]
theorem writes3 : (hostOps3 : List (HloOp τ sig (Elt F))).Forall fun op => op.writes ⊆ (written3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 3 does not define keeps its contents across it. -/
theorem keep3 (W : Valuation τ sig (Elt F)) (r : Ref sig .tc) (h : r ∉ written3) :
    StableHlo.after hostOps3 W (Proc.devRef .tc r) = W (Proc.devRef .tc r) :=
  StableHlo.after_of_writes_sub hostOps3 W writes3 h

/-- The buffers stretch 4 defines. -/
abbrev written4 : List (Ref sig .tc) := [main_c_7, main_v54, main_v55, main_c_8, main_v56, main_v57, main_v58, main_v59, main_v60, main_v61, main_v62, main_v63, main_cst_9, main_v64, main_v65, main_v66, main_v67, main_v68, main_v69]
theorem writes4 : (hostOps4 : List (HloOp τ sig (Elt F))).Forall fun op => op.writes ⊆ (written4.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 4 does not define keeps its contents across it. -/
theorem keep4 (W : Valuation τ sig (Elt F)) (r : Ref sig .tc) (h : r ∉ written4) :
    StableHlo.after hostOps4 W (Proc.devRef .tc r) = W (Proc.devRef .tc r) :=
  StableHlo.after_of_writes_sub hostOps4 W writes4 h

/-- The buffers stretch 5 defines. -/
abbrev written5 : List (Ref sig .tc) := [main_c_10, main_v71, main_v72, main_c_11, main_v73, main_v74, main_v75, main_v76, main_v77, main_v78, main_v79, main_v80, main_cst_12, main_v81, main_v82, main_v83, main_v84, main_v85, main_v86]
theorem writes5 : (hostOps5 : List (HloOp τ sig (Elt F))).Forall fun op => op.writes ⊆ (written5.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 5 does not define keeps its contents across it. -/
theorem keep5 (W : Valuation τ sig (Elt F)) (r : Ref sig .tc) (h : r ∉ written5) :
    StableHlo.after hostOps5 W (Proc.devRef .tc r) = W (Proc.devRef .tc r) :=
  StableHlo.after_of_writes_sub hostOps5 W writes5 h

/-- The buffers stretch 5_1 defines. -/
abbrev written5_1 : List (Ref sig .tc) := [main_call2_cst, main_call2_v0, main_v87]
theorem writes5_1 : (hostOps5_1 : List (HloOp τ sig (Elt F))).Forall fun op => op.writes ⊆ (written5_1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 5_1 does not define keeps its contents across it. -/
theorem keep5_1 (W : Valuation τ sig (Elt F)) (r : Ref sig .tc) (h : r ∉ written5_1) :
    StableHlo.after hostOps5_1 W (Proc.devRef .tc r) = W (Proc.devRef .tc r) :=
  StableHlo.after_of_writes_sub hostOps5_1 W writes5_1 h

/-- The buffers stretch 6 defines. -/
abbrev written6 : List (Ref sig .tc) := [main_c_13, main_v89, main_v90, main_c_14, main_v91, main_v92, main_v93, main_v94, main_v95, main_v96, main_v97, main_v98, main_cst_15, main_v99, main_v100, main_v101, main_v102, main_v103, main_v104]
theorem writes6 : (hostOps6 : List (HloOp τ sig (Elt F))).Forall fun op => op.writes ⊆ (written6.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 6 does not define keeps its contents across it. -/
theorem keep6 (W : Valuation τ sig (Elt F)) (r : Ref sig .tc) (h : r ∉ written6) :
    StableHlo.after hostOps6 W (Proc.devRef .tc r) = W (Proc.devRef .tc r) :=
  StableHlo.after_of_writes_sub hostOps6 W writes6 h

/-- The buffers stretch 6_1 defines. -/
abbrev written6_1 : List (Ref sig .tc) := [main_call3_cst, main_call3_v0, main_v105]
theorem writes6_1 : (hostOps6_1 : List (HloOp τ sig (Elt F))).Forall fun op => op.writes ⊆ (written6_1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 6_1 does not define keeps its contents across it. -/
theorem keep6_1 (W : Valuation τ sig (Elt F)) (r : Ref sig .tc) (h : r ∉ written6_1) :
    StableHlo.after hostOps6_1 W (Proc.devRef .tc r) = W (Proc.devRef .tc r) :=
  StableHlo.after_of_writes_sub hostOps6_1 W writes6_1 h

/-- The buffers stretch 7 defines. -/
abbrev written7 : List (Ref sig .tc) := [main_c_16, main_v107, main_v108, main_c_17, main_v109, main_v110, main_v111, main_v112, main_v113, main_v114, main_v115, main_v116, main_cst_18, main_v117, main_v118, main_v119, main_v120, main_v121, main_v122]
theorem writes7 : (hostOps7 : List (HloOp τ sig (Elt F))).Forall fun op => op.writes ⊆ (written7.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 7 does not define keeps its contents across it. -/
theorem keep7 (W : Valuation τ sig (Elt F)) (r : Ref sig .tc) (h : r ∉ written7) :
    StableHlo.after hostOps7 W (Proc.devRef .tc r) = W (Proc.devRef .tc r) :=
  StableHlo.after_of_writes_sub hostOps7 W writes7 h

/-- The buffers stretch 8 defines. -/
abbrev written8 : List (Ref sig .tc) := [main_c_19, main_v124, main_v125, main_c_20, main_v126, main_v127, main_v128, main_v129, main_v130, main_v131, main_v132, main_v133, main_cst_21, main_v134, main_v135, main_v136, main_v137, main_v138, main_v139]
theorem writes8 : (hostOps8 : List (HloOp τ sig (Elt F))).Forall fun op => op.writes ⊆ (written8.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 8 does not define keeps its contents across it. -/
theorem keep8 (W : Valuation τ sig (Elt F)) (r : Ref sig .tc) (h : r ∉ written8) :
    StableHlo.after hostOps8 W (Proc.devRef .tc r) = W (Proc.devRef .tc r) :=
  StableHlo.after_of_writes_sub hostOps8 W writes8 h

end Cert.KernelIdeal.HostKeep

end
-- ==== Proof.Carry.lean ====
/-
  What survives each of the twenty segments of the run.  A region replaces its result array and leaves every other
  buffer — its two operands included — as it found it; a stretch of host operations replaces the values it defines and
  nothing else.  Hence the thirteen argument arrays hold their launch contents at every boundary, a hidden layer's
  activations are still there for the second head's product, and each result, once computed, is unchanged to the end.
-/
import proofs.«162428_j26061861552728_1_alg».proof.Proof.Gen.KernelIdeal.Frame
import proofs.«162428_j26061861552728_1_alg».proof.Proof.HostKeep

set_option maxRecDepth 16384

noncomputable section

namespace Cert.KernelIdeal.Carry

open Idealize.ShloMosaic Idealize.ShloMosaic.TcCoe Idealize.SL.Sem
open Cert.KernelIdeal Cert.KernelIdeal.Gen Cert.KernelIdeal.HostKeep
open Idealize.ShloMosaic.Pipeline (Dat)

variable {F : FTy → Type} [FloatOps F]
variable (m : (ℓ : Loc nD τ sig) → Buf (Elt F) ℓ) (ρ : Dev nD → PrngReg)

/-- The thirteen argument arrays. -/
abbrev argList : List (Ref sig .tc) := [main_arg0, main_arg1, main_arg2, main_arg3, main_arg4, main_arg5, main_arg6, main_arg7, main_arg8, main_arg9, main_arg10, main_arg11, main_arg12]

/-- Product 0 writes only its result array. -/
theorem region0 (c : Dev nD) (r : Ref sig .tc) (hr : r ≠ main_v0) :
    W1 m ρ c (Proc.devRef .tc r) = W0 m ρ c (Proc.devRef .tc r) := by
  by_cases h0 : r = main_arg0
  · subst h0; exact (W1_arr m ρ c 0).trans (((dat0 (V0 m ρ) c).arrAt_in 0 rfl _).trans (A_eq0 (V0 m ρ) c 0))
  by_cases h1 : r = main_arg5
  · subst h1; exact (W1_arr m ρ c 1).trans (((dat0 (V0 m ρ) c).arrAt_in 1 rfl _).trans (A_eq0 (V0 m ρ) c 1))
  exact W1_of_ne m ρ c r (fun w => match w with
    | ⟨0, _⟩ => fun e => h0 e.symm
    | ⟨1, _⟩ => fun e => h1 e.symm
    | ⟨2, _⟩ => fun e => hr e.symm)
abbrev touched0 : List (Ref sig .tc) := [main_v0]
theorem step0 (c : Dev nD) (r : Ref sig .tc) (h : r ∉ touched0) :
    W1 m ρ c (Proc.devRef .tc r) = W0 m ρ c (Proc.devRef .tc r) :=
  region0 m ρ c r (List.ne_of_not_mem_cons h)

abbrev touched1 : List (Ref sig .tc) := written1
theorem step1 (c : Dev nD) (r : Ref sig .tc) (h : r ∉ touched1) :
    W2 m ρ c (Proc.devRef .tc r) = W1 m ρ c (Proc.devRef .tc r) :=
  keep1 (W1 m ρ c) r h

abbrev touched2 : List (Ref sig .tc) := written1_1
theorem step2 (c : Dev nD) (r : Ref sig .tc) (h : r ∉ touched2) :
    W3 m ρ c (Proc.devRef .tc r) = W2 m ρ c (Proc.devRef .tc r) :=
  keep1_1 (W2 m ρ c) r h

/-- Product 1 writes only its result array. -/
theorem region1 (c : Dev nD) (r : Ref sig .tc) (hr : r ≠ main_v18) :
    W4 m ρ c (Proc.devRef .tc r) = W3 m ρ c (Proc.devRef .tc r) := by
  by_cases h0 : r = main_v17
  · subst h0; exact (W4_arr m ρ c 0).trans (((dat1 (V3 m ρ) c).arrAt_in 0 rfl _).trans (A_eq1 (V3 m ρ) c 0))
  by_cases h1 : r = main_arg7
  · subst h1; exact (W4_arr m ρ c 1).trans (((dat1 (V3 m ρ) c).arrAt_in 1 rfl _).trans (A_eq1 (V3 m ρ) c 1))
  exact W4_of_ne m ρ c r (fun w => match w with
    | ⟨0, _⟩ => fun e => h0 e.symm
    | ⟨1, _⟩ => fun e => h1 e.symm
    | ⟨2, _⟩ => fun e => hr e.symm)
abbrev touched3 : List (Ref sig .tc) := [main_v18]
theorem step3 (c : Dev nD) (r : Ref sig .tc) (h : r ∉ touched3) :
    W4 m ρ c (Proc.devRef .tc r) = W3 m ρ c (Proc.devRef .tc r) :=
  region1 m ρ c r (List.ne_of_not_mem_cons h)

abbrev touched4 : List (Ref sig .tc) := written2
theorem step4 (c : Dev nD) (r : Ref sig .tc) (h : r ∉ touched4) :
    W5 m ρ c (Proc.devRef .tc r) = W4 m ρ c (Proc.devRef .tc r) :=
  keep2 (W4 m ρ c) r h

abbrev touched5 : List (Ref sig .tc) := written2_1
theorem step5 (c : Dev nD) (r : Ref sig .tc) (h : r ∉ touched5) :
    W6 m ρ c (Proc.devRef .tc r) = W5 m ρ c (Proc.devRef .tc r) :=
  keep2_1 (W5 m ρ c) r h

/-- Product 2 writes only its result array. -/
theorem region2 (c : Dev nD) (r : Ref sig .tc) (hr : r ≠ main_v36) :
    W7 m ρ c (Proc.devRef .tc r) = W6 m ρ c (Proc.devRef .tc r) := by
  by_cases h0 : r = main_v35
  · subst h0; exact (W7_arr m ρ c 0).trans (((dat2 (V6 m ρ) c).arrAt_in 0 rfl _).trans (A_eq2 (V6 m ρ) c 0))
  by_cases h1 : r = main_arg9
  · subst h1; exact (W7_arr m ρ c 1).trans (((dat2 (V6 m ρ) c).arrAt_in 1 rfl _).trans (A_eq2 (V6 m ρ) c 1))
  exact W7_of_ne m ρ c r (fun w => match w with
    | ⟨0, _⟩ => fun e => h0 e.symm
    | ⟨1, _⟩ => fun e => h1 e.symm
    | ⟨2, _⟩ => fun e => hr e.symm)
abbrev touched6 : List (Ref sig .tc) := [main_v36]
theorem step6 (c : Dev nD) (r : Ref sig .tc) (h : r ∉ touched6) :
    W7 m ρ c (Proc.devRef .tc r) = W6 m ρ c (Proc.devRef .tc r) :=
  region2 m ρ c r (List.ne_of_not_mem_cons h)

abbrev touched7 : List (Ref sig .tc) := written3
theorem step7 (c : Dev nD) (r : Ref sig .tc) (h : r ∉ touched7) :
    W8 m ρ c (Proc.devRef .tc r) = W7 m ρ c (Proc.devRef .tc r) :=
  keep3 (W7 m ρ c) r h

/-- Product 3 writes only its result array. -/
theorem region3 (c : Dev nD) (r : Ref sig .tc) (hr : r ≠ main_v53) :
    W9 m ρ c (Proc.devRef .tc r) = W8 m ρ c (Proc.devRef .tc r) := by
  by_cases h0 : r = main_v35
  · subst h0; exact (W9_arr m ρ c 0).trans (((dat3 (V8 m ρ) c).arrAt_in 0 rfl _).trans (A_eq3 (V8 m ρ) c 0))
  by_cases h1 : r = main_arg11
  · subst h1; exact (W9_arr m ρ c 1).trans (((dat3 (V8 m ρ) c).arrAt_in 1 rfl _).trans (A_eq3 (V8 m ρ) c 1))
  exact W9_of_ne m ρ c r (fun w => match w with
    | ⟨0, _⟩ => fun e => h0 e.symm
    | ⟨1, _⟩ => fun e => h1 e.symm
    | ⟨2, _⟩ => fun e => hr e.symm)
abbrev touched8 : List (Ref sig .tc) := [main_v53]
theorem step8 (c : Dev nD) (r : Ref sig .tc) (h : r ∉ touched8) :
    W9 m ρ c (Proc.devRef .tc r) = W8 m ρ c (Proc.devRef .tc r) :=
  region3 m ρ c r (List.ne_of_not_mem_cons h)

abbrev touched9 : List (Ref sig .tc) := written4
theorem step9 (c : Dev nD) (r : Ref sig .tc) (h : r ∉ touched9) :
    W10 m ρ c (Proc.devRef .tc r) = W9 m ρ c (Proc.devRef .tc r) :=
  keep4 (W9 m ρ c) r h

/-- Product 4 writes only its result array. -/
theorem region4 (c : Dev nD) (r : Ref sig .tc) (hr : r ≠ main_v70) :
    W11 m ρ c (Proc.devRef .tc r) = W10 m ρ c (Proc.devRef .tc r) := by
  by_cases h0 : r = main_arg1
  · subst h0; exact (W11_arr m ρ c 0).trans (((dat4 (V10 m ρ) c).arrAt_in 0 rfl _).trans (A_eq4 (V10 m ρ) c 0))
  by_cases h1 : r = main_arg5
  · subst h1; exact (W11_arr m ρ c 1).trans (((dat4 (V10 m ρ) c).arrAt_in 1 rfl _).trans (A_eq4 (V10 m ρ) c 1))
  exact W11_of_ne m ρ c r (fun w => match w with
    | ⟨0, _⟩ => fun e => h0 e.symm
    | ⟨1, _⟩ => fun e => h1 e.symm
    | ⟨2, _⟩ => fun e => hr e.symm)
abbrev touched10 : List (Ref sig .tc) := [main_v70]
theorem step10 (c : Dev nD) (r : Ref sig .tc) (h : r ∉ touched10) :
    W11 m ρ c (Proc.devRef .tc r) = W10 m ρ c (Proc.devRef .tc r) :=
  region4 m ρ c r (List.ne_of_not_mem_cons h)

abbrev touched11 : List (Ref sig .tc) := written5
theorem step11 (c : Dev nD) (r : Ref sig .tc) (h : r ∉ touched11) :
    W12 m ρ c (Proc.devRef .tc r) = W11 m ρ c (Proc.devRef .tc r) :=
  keep5 (W11 m ρ c) r h

abbrev touched12 : List (Ref sig .tc) := written5_1
theorem step12 (c : Dev nD) (r : Ref sig .tc) (h : r ∉ touched12) :
    W13 m ρ c (Proc.devRef .tc r) = W12 m ρ c (Proc.devRef .tc r) :=
  keep5_1 (W12 m ρ c) r h

/-- Product 5 writes only its result array. -/
theorem region5 (c : Dev nD) (r : Ref sig .tc) (hr : r ≠ main_v88) :
    W14 m ρ c (Proc.devRef .tc r) = W13 m ρ c (Proc.devRef .tc r) := by
  by_cases h0 : r = main_v87
  · subst h0; exact (W14_arr m ρ c 0).trans (((dat5 (V13 m ρ) c).arrAt_in 0 rfl _).trans (A_eq5 (V13 m ρ) c 0))
  by_cases h1 : r = main_arg7
  · subst h1; exact (W14_arr m ρ c 1).trans (((dat5 (V13 m ρ) c).arrAt_in 1 rfl _).trans (A_eq5 (V13 m ρ) c 1))
  exact W14_of_ne m ρ c r (fun w => match w with
    | ⟨0, _⟩ => fun e => h0 e.symm
    | ⟨1, _⟩ => fun e => h1 e.symm
    | ⟨2, _⟩ => fun e => hr e.symm)
abbrev touched13 : List (Ref sig .tc) := [main_v88]
theorem step13 (c : Dev nD) (r : Ref sig .tc) (h : r ∉ touched13) :
    W14 m ρ c (Proc.devRef .tc r) = W13 m ρ c (Proc.devRef .tc r) :=
  region5 m ρ c r (List.ne_of_not_mem_cons h)

abbrev touched14 : List (Ref sig .tc) := written6
theorem step14 (c : Dev nD) (r : Ref sig .tc) (h : r ∉ touched14) :
    W15 m ρ c (Proc.devRef .tc r) = W14 m ρ c (Proc.devRef .tc r) :=
  keep6 (W14 m ρ c) r h

abbrev touched15 : List (Ref sig .tc) := written6_1
theorem step15 (c : Dev nD) (r : Ref sig .tc) (h : r ∉ touched15) :
    W16 m ρ c (Proc.devRef .tc r) = W15 m ρ c (Proc.devRef .tc r) :=
  keep6_1 (W15 m ρ c) r h

/-- Product 6 writes only its result array. -/
theorem region6 (c : Dev nD) (r : Ref sig .tc) (hr : r ≠ main_v106) :
    W17 m ρ c (Proc.devRef .tc r) = W16 m ρ c (Proc.devRef .tc r) := by
  by_cases h0 : r = main_v105
  · subst h0; exact (W17_arr m ρ c 0).trans (((dat6 (V16 m ρ) c).arrAt_in 0 rfl _).trans (A_eq6 (V16 m ρ) c 0))
  by_cases h1 : r = main_arg9
  · subst h1; exact (W17_arr m ρ c 1).trans (((dat6 (V16 m ρ) c).arrAt_in 1 rfl _).trans (A_eq6 (V16 m ρ) c 1))
  exact W17_of_ne m ρ c r (fun w => match w with
    | ⟨0, _⟩ => fun e => h0 e.symm
    | ⟨1, _⟩ => fun e => h1 e.symm
    | ⟨2, _⟩ => fun e => hr e.symm)
abbrev touched16 : List (Ref sig .tc) := [main_v106]
theorem step16 (c : Dev nD) (r : Ref sig .tc) (h : r ∉ touched16) :
    W17 m ρ c (Proc.devRef .tc r) = W16 m ρ c (Proc.devRef .tc r) :=
  region6 m ρ c r (List.ne_of_not_mem_cons h)

abbrev touched17 : List (Ref sig .tc) := written7
theorem step17 (c : Dev nD) (r : Ref sig .tc) (h : r ∉ touched17) :
    W18 m ρ c (Proc.devRef .tc r) = W17 m ρ c (Proc.devRef .tc r) :=
  keep7 (W17 m ρ c) r h

/-- Product 7 writes only its result array. -/
theorem region7 (c : Dev nD) (r : Ref sig .tc) (hr : r ≠ main_v123) :
    W19 m ρ c (Proc.devRef .tc r) = W18 m ρ c (Proc.devRef .tc r) := by
  by_cases h0 : r = main_v105
  · subst h0; exact (W19_arr m ρ c 0).trans (((dat7 (V18 m ρ) c).arrAt_in 0 rfl _).trans (A_eq7 (V18 m ρ) c 0))
  by_cases h1 : r = main_arg11
  · subst h1; exact (W19_arr m ρ c 1).trans (((dat7 (V18 m ρ) c).arrAt_in 1 rfl _).trans (A_eq7 (V18 m ρ) c 1))
  exact W19_of_ne m ρ c r (fun w => match w with
    | ⟨0, _⟩ => fun e => h0 e.symm
    | ⟨1, _⟩ => fun e => h1 e.symm
    | ⟨2, _⟩ => fun e => hr e.symm)
abbrev touched18 : List (Ref sig .tc) := [main_v123]
theorem step18 (c : Dev nD) (r : Ref sig .tc) (h : r ∉ touched18) :
    W19 m ρ c (Proc.devRef .tc r) = W18 m ρ c (Proc.devRef .tc r) :=
  region7 m ρ c r (List.ne_of_not_mem_cons h)

abbrev touched19 : List (Ref sig .tc) := written8
theorem step19 (c : Dev nD) (r : Ref sig .tc) (h : r ∉ touched19) :
    W20 m ρ c (Proc.devRef .tc r) = W19 m ρ c (Proc.devRef .tc r) :=
  keep8 (W19 m ρ c) r h

/-! ## The argument arrays at every boundary -/

theorem args0 (c : Dev nD) : ∀ r ∈ argList, W0 m ρ c (Proc.devRef .tc r) = W0 m ρ c (Proc.devRef .tc r) := fun _ _ => rfl
theorem args1 (c : Dev nD) : ∀ r ∈ argList, W1 m ρ c (Proc.devRef .tc r) = W0 m ρ c (Proc.devRef .tc r) :=
  fun r hr => (step0 m ρ c r ((by decide : ∀ r ∈ argList, r ∉ touched0) r hr)).trans (args0 m ρ c r hr)
theorem args2 (c : Dev nD) : ∀ r ∈ argList, W2 m ρ c (Proc.devRef .tc r) = W0 m ρ c (Proc.devRef .tc r) :=
  fun r hr => (step1 m ρ c r ((by decide : ∀ r ∈ argList, r ∉ touched1) r hr)).trans (args1 m ρ c r hr)
theorem args3 (c : Dev nD) : ∀ r ∈ argList, W3 m ρ c (Proc.devRef .tc r) = W0 m ρ c (Proc.devRef .tc r) :=
  fun r hr => (step2 m ρ c r ((by decide : ∀ r ∈ argList, r ∉ touched2) r hr)).trans (args2 m ρ c r hr)
theorem args4 (c : Dev nD) : ∀ r ∈ argList, W4 m ρ c (Proc.devRef .tc r) = W0 m ρ c (Proc.devRef .tc r) :=
  fun r hr => (step3 m ρ c r ((by decide : ∀ r ∈ argList, r ∉ touched3) r hr)).trans (args3 m ρ c r hr)
theorem args5 (c : Dev nD) : ∀ r ∈ argList, W5 m ρ c (Proc.devRef .tc r) = W0 m ρ c (Proc.devRef .tc r) :=
  fun r hr => (step4 m ρ c r ((by decide : ∀ r ∈ argList, r ∉ touched4) r hr)).trans (args4 m ρ c r hr)
theorem args6 (c : Dev nD) : ∀ r ∈ argList, W6 m ρ c (Proc.devRef .tc r) = W0 m ρ c (Proc.devRef .tc r) :=
  fun r hr => (step5 m ρ c r ((by decide : ∀ r ∈ argList, r ∉ touched5) r hr)).trans (args5 m ρ c r hr)
theorem args7 (c : Dev nD) : ∀ r ∈ argList, W7 m ρ c (Proc.devRef .tc r) = W0 m ρ c (Proc.devRef .tc r) :=
  fun r hr => (step6 m ρ c r ((by decide : ∀ r ∈ argList, r ∉ touched6) r hr)).trans (args6 m ρ c r hr)
theorem args8 (c : Dev nD) : ∀ r ∈ argList, W8 m ρ c (Proc.devRef .tc r) = W0 m ρ c (Proc.devRef .tc r) :=
  fun r hr => (step7 m ρ c r ((by decide : ∀ r ∈ argList, r ∉ touched7) r hr)).trans (args7 m ρ c r hr)
theorem args9 (c : Dev nD) : ∀ r ∈ argList, W9 m ρ c (Proc.devRef .tc r) = W0 m ρ c (Proc.devRef .tc r) :=
  fun r hr => (step8 m ρ c r ((by decide : ∀ r ∈ argList, r ∉ touched8) r hr)).trans (args8 m ρ c r hr)
theorem args10 (c : Dev nD) : ∀ r ∈ argList, W10 m ρ c (Proc.devRef .tc r) = W0 m ρ c (Proc.devRef .tc r) :=
  fun r hr => (step9 m ρ c r ((by decide : ∀ r ∈ argList, r ∉ touched9) r hr)).trans (args9 m ρ c r hr)
theorem args11 (c : Dev nD) : ∀ r ∈ argList, W11 m ρ c (Proc.devRef .tc r) = W0 m ρ c (Proc.devRef .tc r) :=
  fun r hr => (step10 m ρ c r ((by decide : ∀ r ∈ argList, r ∉ touched10) r hr)).trans (args10 m ρ c r hr)
theorem args12 (c : Dev nD) : ∀ r ∈ argList, W12 m ρ c (Proc.devRef .tc r) = W0 m ρ c (Proc.devRef .tc r) :=
  fun r hr => (step11 m ρ c r ((by decide : ∀ r ∈ argList, r ∉ touched11) r hr)).trans (args11 m ρ c r hr)
theorem args13 (c : Dev nD) : ∀ r ∈ argList, W13 m ρ c (Proc.devRef .tc r) = W0 m ρ c (Proc.devRef .tc r) :=
  fun r hr => (step12 m ρ c r ((by decide : ∀ r ∈ argList, r ∉ touched12) r hr)).trans (args12 m ρ c r hr)
theorem args14 (c : Dev nD) : ∀ r ∈ argList, W14 m ρ c (Proc.devRef .tc r) = W0 m ρ c (Proc.devRef .tc r) :=
  fun r hr => (step13 m ρ c r ((by decide : ∀ r ∈ argList, r ∉ touched13) r hr)).trans (args13 m ρ c r hr)
theorem args15 (c : Dev nD) : ∀ r ∈ argList, W15 m ρ c (Proc.devRef .tc r) = W0 m ρ c (Proc.devRef .tc r) :=
  fun r hr => (step14 m ρ c r ((by decide : ∀ r ∈ argList, r ∉ touched14) r hr)).trans (args14 m ρ c r hr)
theorem args16 (c : Dev nD) : ∀ r ∈ argList, W16 m ρ c (Proc.devRef .tc r) = W0 m ρ c (Proc.devRef .tc r) :=
  fun r hr => (step15 m ρ c r ((by decide : ∀ r ∈ argList, r ∉ touched15) r hr)).trans (args15 m ρ c r hr)
theorem args17 (c : Dev nD) : ∀ r ∈ argList, W17 m ρ c (Proc.devRef .tc r) = W0 m ρ c (Proc.devRef .tc r) :=
  fun r hr => (step16 m ρ c r ((by decide : ∀ r ∈ argList, r ∉ touched16) r hr)).trans (args16 m ρ c r hr)
theorem args18 (c : Dev nD) : ∀ r ∈ argList, W18 m ρ c (Proc.devRef .tc r) = W0 m ρ c (Proc.devRef .tc r) :=
  fun r hr => (step17 m ρ c r ((by decide : ∀ r ∈ argList, r ∉ touched17) r hr)).trans (args17 m ρ c r hr)
theorem args19 (c : Dev nD) : ∀ r ∈ argList, W19 m ρ c (Proc.devRef .tc r) = W0 m ρ c (Proc.devRef .tc r) :=
  fun r hr => (step18 m ρ c r ((by decide : ∀ r ∈ argList, r ∉ touched18) r hr)).trans (args18 m ρ c r hr)
theorem args20 (c : Dev nD) : ∀ r ∈ argList, W20 m ρ c (Proc.devRef .tc r) = W0 m ρ c (Proc.devRef .tc r) :=
  fun r hr => (step19 m ρ c r ((by decide : ∀ r ∈ argList, r ∉ touched19) r hr)).trans (args19 m ρ c r hr)

/-! ## Values that wait for a later reader -/

/-- The first branch's second hidden layer is still in place when the second head's product reads it. -/
theorem hidden_sp_kept (c : Dev nD) : W8 m ρ c (Proc.devRef .tc main_v35) = W6 m ρ c (Proc.devRef .tc main_v35) :=
  (step7 m ρ c main_v35 (by decide)).trans ((step6 m ρ c main_v35 (by decide)))
/-- The same for the second branch. -/
theorem hidden_aug_kept (c : Dev nD) : W18 m ρ c (Proc.devRef .tc main_v105) = W16 m ρ c (Proc.devRef .tc main_v105) :=
  (step17 m ρ c main_v105 (by decide)).trans ((step16 m ρ c main_v105 (by decide)))
/-- Each result, once computed, is unchanged to the end of the run. -/
theorem result0_kept (c : Dev nD) : W20 m ρ c (Proc.devRef .tc main_v52) = W8 m ρ c (Proc.devRef .tc main_v52) :=
  (step19 m ρ c main_v52 (by decide)).trans ((step18 m ρ c main_v52 (by decide)).trans ((step17 m ρ c main_v52 (by decide)).trans ((step16 m ρ c main_v52 (by decide)).trans ((step15 m ρ c main_v52 (by decide)).trans ((step14 m ρ c main_v52 (by decide)).trans ((step13 m ρ c main_v52 (by decide)).trans ((step12 m ρ c main_v52 (by decide)).trans ((step11 m ρ c main_v52 (by decide)).trans ((step10 m ρ c main_v52 (by decide)).trans ((step9 m ρ c main_v52 (by decide)).trans ((step8 m ρ c main_v52 (by decide)))))))))))))
theorem result1_kept (c : Dev nD) : W20 m ρ c (Proc.devRef .tc main_v69) = W10 m ρ c (Proc.devRef .tc main_v69) :=
  (step19 m ρ c main_v69 (by decide)).trans ((step18 m ρ c main_v69 (by decide)).trans ((step17 m ρ c main_v69 (by decide)).trans ((step16 m ρ c main_v69 (by decide)).trans ((step15 m ρ c main_v69 (by decide)).trans ((step14 m ρ c main_v69 (by decide)).trans ((step13 m ρ c main_v69 (by decide)).trans ((step12 m ρ c main_v69 (by decide)).trans ((step11 m ρ c main_v69 (by decide)).trans ((step10 m ρ c main_v69 (by decide)))))))))))
theorem result2_kept (c : Dev nD) : W20 m ρ c (Proc.devRef .tc main_v122) = W18 m ρ c (Proc.devRef .tc main_v122) :=
  (step19 m ρ c main_v122 (by decide)).trans ((step18 m ρ c main_v122 (by decide)))

end Cert.KernelIdeal.Carry

end
-- ==== Proof.Layers.lean ====
/-
  The host side of one graph-convolution layer, as functions of whole arrays.

  A layer takes the projected features `sup` (one row per node), gathers the row of each edge's source node,
  scales it by the edge's weight, adds the scaled rows into the row of the edge's target node (starting from zero),
  and adds the bias to every row; the two hidden layers then clamp at zero from below.  Both programs apply exactly
  these operations around their products, so they are named here once and never opened.
-/
import proofs.«162428_j26061861552728_1_alg».proof.Proof.Gen.KernelIdeal

noncomputable section

namespace Cert.KernelIdeal.Layers

open Idealize.ShloMosaic Cert.KernelIdeal Cert.KernelIdeal.Facts₀ Cert.KernelIdeal.Facts

variable {F : FTy → Type} [FloatOps F]

/-- The source-node numbers as the gather takes them: a negative number counted from the end, then a column. -/
def srcIdx (col : (⟨S1600000, .i32⟩ : BufTy).Contents (Elt F)) : (⟨S1600000x1, .i32⟩ : BufTy).Contents (Elt F) :=
  broadcastInDim S1600000x1 ![0] bcast_S1600000_S1600000x1_0
    (select (cmpi .slt col (broadcastInDim S1600000 ![] bcast_S_S1600000 (constantI S_ 32 0#32)))
      (addi col (broadcastInDim S1600000 ![] bcast_S_S1600000 (constantI S_ 32 50000#32))) col)

/-- Clamping a 128-wide layer at zero from below. -/
def relu128 (x : (⟨S50000x128, .f32⟩ : BufTy).Contents (Elt F)) : (⟨S50000x128, .f32⟩ : BufTy).Contents (Elt F) :=
  maximumf x (broadcastInDim S50000x128 ![] bcast_S_S50000x128 (constant S_ .f32 0x00000000#32))

/-- The aggregation of a 128-wide layer: for every node the weighted sum of its in-neighbours' rows, plus the bias. -/
def agg128 (sup : (⟨S50000x128, .f32⟩ : BufTy).Contents (Elt F)) (row col : (⟨S1600000, .i32⟩ : BufTy).Contents (Elt F))
    (val : (⟨S1600000, .f32⟩ : BufTy).Contents (Elt F)) (b : (⟨S128, .f32⟩ : BufTy).Contents (Elt F)) :
    (⟨S50000x128, .f32⟩ : BufTy).Contents (Elt F) :=
  addf
    (Host.scatterAdd scatter_S50000x128_S1600000x1_S1600000x128_1_0_0_1
      (broadcastInDim S50000x128 ![] bcast_S_S50000x128 (constant S_ .f32 0x00000000#32))
      (broadcastInDim S1600000x1 ![0] bcast_S1600000_S1600000x1_0 row)
      (mulf (broadcastInDim S1600000x128 ![0, 1] bcast_S1600000x1_S1600000x128_0_1
              (broadcastInDim S1600000x1 ![0] bcast_S1600000_S1600000x1_0 val))
        (Host.gather gather_S50000x128_S1600000x1_S1600000x128_1_0_n_n_0_1_1128 sup (srcIdx col))))
    (broadcastInDim S50000x128 ![0, 1] bcast_S1x128_S50000x128_0_1 (broadcastInDim S1x128 ![1] bcast_S128_S1x128_1 b))

/-- The aggregation of a 64-wide layer. -/
def agg64 (sup : (⟨S50000x64, .f32⟩ : BufTy).Contents (Elt F)) (row col : (⟨S1600000, .i32⟩ : BufTy).Contents (Elt F))
    (val : (⟨S1600000, .f32⟩ : BufTy).Contents (Elt F)) (b : (⟨S64, .f32⟩ : BufTy).Contents (Elt F)) :
    (⟨S50000x64, .f32⟩ : BufTy).Contents (Elt F) :=
  addf
    (Host.scatterAdd scatter_S50000x64_S1600000x1_S1600000x64_1_0_0_1
      (broadcastInDim S50000x64 ![] bcast_S_S50000x64 (constant S_ .f32 0x00000000#32))
      (broadcastInDim S1600000x1 ![0] bcast_S1600000_S1600000x1_0 row)
      (mulf (broadcastInDim S1600000x64 ![0, 1] bcast_S1600000x1_S1600000x64_0_1
              (broadcastInDim S1600000x1 ![0] bcast_S1600000_S1600000x1_0 val))
        (Host.gather gather_S50000x64_S1600000x1_S1600000x64_1_0_n_n_0_1_164 sup (srcIdx col))))
    (broadcastInDim S50000x64 ![0, 1] bcast_S1x64_S50000x64_0_1 (broadcastInDim S1x64 ![1] bcast_S64_S1x64_1 b))

/-- The three products of a branch, whole: node features by a weight matrix, every row against every column. -/
def prod512 (x : (⟨S50000x512, .f32⟩ : BufTy).Contents (Elt F)) (w : (⟨S512x128, .f32⟩ : BufTy).Contents (Elt F)) :
    (⟨S50000x128, .f32⟩ : BufTy).Contents (Elt F) :=
  Host.dotGeneral (DotDims.plain 50000 512 128) none x w
def prod128 (x : (⟨S50000x128, .f32⟩ : BufTy).Contents (Elt F)) (w : (⟨S128x128, .f32⟩ : BufTy).Contents (Elt F)) :
    (⟨S50000x128, .f32⟩ : BufTy).Contents (Elt F) :=
  Host.dotGeneral (DotDims.plain 50000 128 128) none x w
def prod64 (x : (⟨S50000x128, .f32⟩ : BufTy).Contents (Elt F)) (w : (⟨S128x64, .f32⟩ : BufTy).Contents (Elt F)) :
    (⟨S50000x64, .f32⟩ : BufTy).Contents (Elt F) :=
  Host.dotGeneral (DotDims.plain 50000 128 64) none x w

end Cert.KernelIdeal.Layers

end
-- ==== Proof.HostRead.lean ====
/-
  What each stretch of host operations between two products computes, as one function of the buffers it reads: the
  aggregation of a layer from the product just written (and, for the two hidden layers, the clamp at zero after it).
-/
import proofs.«162428_j26061861552728_1_alg».proof.Proof.Gen.KernelIdeal.Launch
import proofs.«162428_j26061861552728_1_alg».proof.Proof.Layers
import Idealize.ShloMosaic.Lib.StableHlo.Run

set_option maxRecDepth 16384

noncomputable section

namespace Cert.KernelIdeal.HostRead

open Idealize.ShloMosaic Idealize.ShloMosaic.TcCoe Idealize.SL.Sem Idealize.ShloMosaic.StableHlo
open Cert.KernelIdeal Cert.KernelIdeal.Gen Cert.KernelIdeal.Layers

variable {F : FTy → Type} [FloatOps F] (W : Valuation τ sig (Elt F))

set_option maxHeartbeats 4000000 in
theorem hidden_a :
    StableHlo.after hostOps1_1 (StableHlo.after hostOps1 W) (Proc.devRef .tc main_v17)
      = relu128 (agg128 (W (Proc.devRef .tc main_v0)) (W (Proc.devRef .tc main_arg2)) (W (Proc.devRef .tc main_arg3)) (W (Proc.devRef .tc main_arg4)) (W (Proc.devRef .tc main_arg6))) := by
  dsimp only [hostOps1_1, hostOps1]
  after_results_simp <;> rfl

set_option maxHeartbeats 4000000 in
theorem hidden_b :
    StableHlo.after hostOps2_1 (StableHlo.after hostOps2 W) (Proc.devRef .tc main_v35)
      = relu128 (agg128 (W (Proc.devRef .tc main_v18)) (W (Proc.devRef .tc main_arg2)) (W (Proc.devRef .tc main_arg3)) (W (Proc.devRef .tc main_arg4)) (W (Proc.devRef .tc main_arg8))) := by
  dsimp only [hostOps2_1, hostOps2]
  after_results_simp <;> rfl

set_option maxHeartbeats 4000000 in
theorem head_a :
    StableHlo.after hostOps3 W (Proc.devRef .tc main_v52)
      = agg64 (W (Proc.devRef .tc main_v36)) (W (Proc.devRef .tc main_arg2)) (W (Proc.devRef .tc main_arg3)) (W (Proc.devRef .tc main_arg4)) (W (Proc.devRef .tc main_arg10)) := by
  dsimp only [hostOps3]
  after_results_simp <;> rfl

set_option maxHeartbeats 4000000 in
theorem head_b :
    StableHlo.after hostOps4 W (Proc.devRef .tc main_v69)
      = agg64 (W (Proc.devRef .tc main_v53)) (W (Proc.devRef .tc main_arg2)) (W (Proc.devRef .tc main_arg3)) (W (Proc.devRef .tc main_arg4)) (W (Proc.devRef .tc main_arg12)) := by
  dsimp only [hostOps4]
  after_results_simp <;> rfl

set_option maxHeartbeats 4000000 in
theorem hidden_c :
    StableHlo.after hostOps5_1 (StableHlo.after hostOps5 W) (Proc.devRef .tc main_v87)
      = relu128 (agg128 (W (Proc.devRef .tc main_v70)) (W (Proc.devRef .tc main_arg2)) (W (Proc.devRef .tc main_arg3)) (W (Proc.devRef .tc main_arg4)) (W (Proc.devRef .tc main_arg6))) := by
  dsimp only [hostOps5_1, hostOps5]
  after_results_simp <;> rfl

set_option maxHeartbeats 4000000 in
theorem hidden_d :
    StableHlo.after hostOps6_1 (StableHlo.after hostOps6 W) (Proc.devRef .tc main_v105)
      = relu128 (agg128 (W (Proc.devRef .tc main_v88)) (W (Proc.devRef .tc main_arg2)) (W (Proc.devRef .tc main_arg3)) (W (Proc.devRef .tc main_arg4)) (W (Proc.devRef .tc main_arg8))) := by
  dsimp only [hostOps6_1, hostOps6]
  after_results_simp <;> rfl

set_option maxHeartbeats 4000000 in
theorem head_c :
    StableHlo.after hostOps7 W (Proc.devRef .tc main_v122)
      = agg64 (W (Proc.devRef .tc main_v106)) (W (Proc.devRef .tc main_arg2)) (W (Proc.devRef .tc main_arg3)) (W (Proc.devRef .tc main_arg4)) (W (Proc.devRef .tc main_arg10)) := by
  dsimp only [hostOps7]
  after_results_simp <;> rfl

set_option maxHeartbeats 4000000 in
theorem head_d :
    StableHlo.after hostOps8 W (Proc.devRef .tc main_v139)
      = agg64 (W (Proc.devRef .tc main_v123)) (W (Proc.devRef .tc main_arg2)) (W (Proc.devRef .tc main_arg3)) (W (Proc.devRef .tc main_arg4)) (W (Proc.devRef .tc main_arg12)) := by
  dsimp only [hostOps8]
  after_results_simp <;> rfl

end Cert.KernelIdeal.HostRead

end
-- ==== Proof.Branch.lean ====
/-
  One branch of the network as functions of whole arrays: two hidden layers (product, aggregation, clamp at zero), then a
  head (product, aggregation) on the second hidden layer's activations.
-/
import proofs.«162428_j26061861552728_1_alg».proof.Proof.Layers

noncomputable section

namespace Cert.KernelIdeal.Layers

open Idealize.ShloMosaic Cert.KernelIdeal

variable {F : FTy → Type} [FloatOps F]

/-- The second hidden layer's activations from the input features. -/
def hidden (x : (⟨S50000x512, .f32⟩ : BufTy).Contents (Elt F)) (row col : (⟨S1600000, .i32⟩ : BufTy).Contents (Elt F))
    (val : (⟨S1600000, .f32⟩ : BufTy).Contents (Elt F))
    (w1 : (⟨S512x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) :
    (⟨S50000x128, .f32⟩ : BufTy).Contents (Elt F) :=
  relu128 (agg128 (prod128 (relu128 (agg128 (prod512 x w1) row col val b1)) w2) row col val b2)

/-- A head on the hidden activations. -/
def head (h : (⟨S50000x128, .f32⟩ : BufTy).Contents (Elt F)) (row col : (⟨S1600000, .i32⟩ : BufTy).Contents (Elt F))
    (val : (⟨S1600000, .f32⟩ : BufTy).Contents (Elt F))
    (w : (⟨S128x64, .f32⟩ : BufTy).Contents (Elt F)) (b : (⟨S64, .f32⟩ : BufTy).Contents (Elt F)) :
    (⟨S50000x64, .f32⟩ : BufTy).Contents (Elt F) :=
  agg64 (prod64 h w) row col val b

end Cert.KernelIdeal.Layers

end
-- ==== Proof.LibPlainDot.lean ====
/-
  A plain matrix product — M×K by K×N, the left operand contracted on its columns and the right on its rows, no batch
  axis (`DotDims.plain M K N`) — read at an index at the ideal values, for any extents.

  * `plain_lhsIdx` / `plain_rhsIdx`: at result index (r, c) and contraction coordinate k the operand indices are
    (r, k) and (k, c).
  * `dotGeneral_plain_apply`: the host's product at (r, c) is the sum over k of left (r, k) times right (k, c).
  * `matmul_plain_zero_apply`: the vector unit's product into a zero accumulator is the same sum.
  * `matmul_plain_zero_eq_dotGeneral`: a product of a block of rows (of any two formats) at a block index is the
    product of whole arrays (of any two formats, under any precision and schedule key) at an array index, as soon as the
    block's row is the array's row and the right operands' columns agree: no rounding is left at the ideal values, so
    the tiling of the rows and the operand formats do not matter.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The left operand's index of a plain product at result index `j` and contraction coordinate `k` is (row of `j`, `k`). -/
theorem plain_lhsIdx (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ (0 : Fin (⟨2, ![M, K]⟩ : Shape).rank)).val = (j 0).val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ => exact ((DotDims.plain M K N).lhsIdx_val_of_single rfl j _).trans hk

/-- The right operand's index of a plain product at result index `j` and contraction coordinate `k` is (`k`, column of `j`). -/
theorem plain_rhsIdx (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ (1 : Fin (⟨2, ![K, N]⟩ : Shape).rank)).val = (j 1).val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The host's plain product at the ideal values, at (r, c): the sum over k of left (r, k) times right (k, c). -/
theorem dotGeneral_plain_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j = ∑ k : Fin K, l (ix2 (j 0) k) * r (ix2 k (j 1)) := by
  rw [Ideal.dotGeneral_apply, ← Equiv.sum_comp (contrEquiv1 (DotDims.plain M K N) K rfl rfl).symm]
  refine Finset.sum_congr rfl fun k _ => ?_
  rw [plain_lhsIdx, plain_rhsIdx]
  rfl

/-- The vector unit's plain product into a zero accumulator, at the ideal values, at (r, c): the same sum. -/
theorem matmul_plain_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

/-- A block of B rows times a right operand, into zero, read at block index `y`, is the whole M-row product read at array
    index `i`, when the block's row at `y` is the array's row at `i` and the right operands agree on the column. -/
theorem matmul_plain_zero_eq_dotGeneral {B : Nat} {φ₁ φ₂ ψ₁ ψ₂ : FTy} (prec prec' : Option ContractPrecision)
    (sched : HostSchedule)
    (lb : FVec Ideal ⟨2, ![B, K]⟩ φ₁) (rb : FVec Ideal ⟨2, ![K, N]⟩ φ₂)
    (l : FVec Ideal ⟨2, ![M, K]⟩ ψ₁) (r : FVec Ideal ⟨2, ![K, N]⟩ ψ₂)
    (y : (⟨2, ![B, N]⟩ : Shape).Idx) (i : (⟨2, ![M, N]⟩ : Shape).Idx)
    (hrow : ∀ k : Fin K, (lb (ix2 (y 0) k) : EReal) = l (ix2 (i 0) k))
    (hcol : ∀ k : Fin K, (rb (ix2 k (y 1)) : EReal) = r (ix2 k (i 1))) :
    (FloatOps.matmul (DotDims.plain B K N) prec lb rb (constant ⟨2, ![B, N]⟩ .f32 0x00000000#32) y : EReal)
      = FloatOps.dotGeneral (DotDims.plain M K N) prec' sched l r i := by
  rw [matmul_plain_zero_apply, dotGeneral_plain_apply]
  exact Finset.sum_congr rfl fun k _ => by rw [hrow k, hcol k]

end Cert.LibPlainDot

end
-- ==== Proof.Region0.lean ====
/-
  Product 0 of the pipeline, whole.  The node axis is cut into ten blocks of 5000 rows; grid point t multiplies rows
  5000·t … 5000·t + 4999 of the left array by the whole 512×128 right array, into a zero accumulator, and writes the
  5000×128 block back at the same rows.  At the ideal values a change of format is the identity and the accumulated
  product is the exact sum over the 512 contracted positions, so entry (r, c) of the block written by the point covering
  row r is the entry (r, c) of the product of the two whole arrays; the ten blocks tile the 50000 rows, so the array the
  region leaves is that product.
-/
import proofs.«162428_j26061861552728_1_alg».proof.Proof.Gen.KernelIdeal.Frame
import proofs.«162428_j26061861552728_1_alg».proof.Proof.LibPlainDot
import proofs.«162428_j26061861552728_1_alg».proof.Proof.Layers
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen Cert.KernelIdeal.Layers
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the left operand's block and the result's block sit at the same row block and at
    column block zero; the right operand's one block is the whole array. -/
theorem block_positions : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the ten row blocks is some point's. -/
theorem block_onto : ∀ q : Fin 10, ∃ t : Fin cfg0.N, win0_2.index t = ![q.val, 0] :=
  (by decide +kernel : ∀ q : Fin 10, ∃ t : Fin grid0.N, win0_2.index t = ![q.val, 0])

/-- What point `t` writes back is block `t` of the whole product of the two arrays as the region finds them. -/
theorem written_eq (c : Dev nD) (t : Fin cfg0.N) :
    (dat0 (F := Ideal) V c).flushed 2 t
      = ((cfg0.win 2).blk t).view.read (Elt Ideal) (prod512 (F := Ideal) (V c main_arg0) (V c main_arg5)) := by
  show (cfg0.win 2).cut (grid0.coords t) ((dat0 V c).after 2 t) = _
  rw [after0_2]
  unfold out0_2
  rw [View.canon_unit_zero origin]
  simp only [View.ld_unit_zero (S := S5000x512) origin, View.ld_unit_zero (S := S512x128) origin]
  obtain ⟨e0, e1, e2, e3, e4⟩ := block_positions t
  funext j
  show k0_pay1 (iblk0 V c 0 t) (iblk0 V c 1 t) j
    = prod512 (F := Ideal) (V c main_arg0) (V c main_arg5) (((cfg0.win 2).blk t).view.emb j)
  unfold k0_pay1 prod512
  refine Cert.LibPlainDot.matmul_plain_zero_eq_dotGeneral (M := 50000) (K := 512) (N := 128) (B := 5000) none none _ _ _
    (V c main_arg0) (V c main_arg5) j (((cfg0.win 2).blk t).view.emb j) (fun k => ?_) (fun k => ?_)
  · show V c main_arg0 (((cfg0.win 0).blk t).view.emb (ix2 (j 0) k)) = V c main_arg0 (ix2 ((((cfg0.win 2).blk t).view.emb j) 0) k)
    refine congrArg (V c main_arg0) ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 512 + 1 * k.val = k.val; omega
  · show V c main_arg5 (((cfg0.win 1).blk t).view.emb (ix2 k (j 1))) = V c main_arg5 (ix2 k ((((cfg0.win 2).blk t).view.emb j) 1))
    refine congrArg (V c main_arg5) ?_
    funext a; apply Fin.ext
    match a with
    | ⟨0, _⟩ => show win0_1.index t (0 : Fin 2) * 512 + 1 * k.val = k.val; omega
    | ⟨1, _⟩ => show win0_1.index t (1 : Fin 2) * 128 + 1 * (j 1).val = win0_2.index t (1 : Fin 2) * 128 + 1 * (j 1).val; omega

/-- An index of the result array is in point `t`'s block iff each coordinate is in the block's range on its axis. -/
theorem mem_block (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v0).slice (win0_2.rect t)).set ↔ _
  rw [View.set_slice_whole, Rect.mem_set_unit]
  exact Iff.rfl

/-- Row r lies in the block of the point whose row block is r / 5000: the blocks cover the array. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := block_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the region: the whole product of the two arrays as the region finds them. -/
theorem product (c : Dev nD) :
    (dat0 (F := Ideal) V c).arrAt 2 cfg0.N = prod512 (F := Ideal) (V c main_arg0) (V c main_arg5) :=
  (dat0 (F := Ideal) V c).arrAt_eq_of_cover 2 _ (fun t _ => written_eq V c t) covered

end Cert.KernelIdeal.Region0

end
-- ==== Proof.Region1.lean ====
/-
  Product 1 of the pipeline, whole.  The node axis is cut into ten blocks of 5000 rows; grid point t multiplies rows
  5000·t … 5000·t + 4999 of the left array by the whole 128×128 right array, into a zero accumulator, and writes the
  5000×128 block back at the same rows.  At the ideal values a change of format is the identity and the accumulated
  product is the exact sum over the 128 contracted positions, so entry (r, c) of the block written by the point covering
  row r is the entry (r, c) of the product of the two whole arrays; the ten blocks tile the 50000 rows, so the array the
  region leaves is that product.
-/
import proofs.«162428_j26061861552728_1_alg».proof.Proof.Gen.KernelIdeal.Frame
import proofs.«162428_j26061861552728_1_alg».proof.Proof.LibPlainDot
import proofs.«162428_j26061861552728_1_alg».proof.Proof.Layers
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen Cert.KernelIdeal.Layers
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the left operand's block and the result's block sit at the same row block and at
    column block zero; the right operand's one block is the whole array. -/
theorem block_positions : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0 :=
  (by decide +kernel : ∀ t : Fin grid1.N, _)

/-- Every one of the ten row blocks is some point's. -/
theorem block_onto : ∀ q : Fin 10, ∃ t : Fin cfg1.N, win1_2.index t = ![q.val, 0] :=
  (by decide +kernel : ∀ q : Fin 10, ∃ t : Fin grid1.N, win1_2.index t = ![q.val, 0])

/-- What point `t` writes back is block `t` of the whole product of the two arrays as the region finds them. -/
theorem written_eq (c : Dev nD) (t : Fin cfg1.N) :
    (dat1 (F := Ideal) V c).flushed 2 t
      = ((cfg1.win 2).blk t).view.read (Elt Ideal) (prod128 (F := Ideal) (V c main_v17) (V c main_arg7)) := by
  show (cfg1.win 2).cut (grid1.coords t) ((dat1 V c).after 2 t) = _
  rw [after1_2]
  unfold out1_2
  rw [View.canon_unit_zero origin]
  simp only [View.ld_unit_zero (S := S5000x128) origin, View.ld_unit_zero (S := S128x128) origin]
  obtain ⟨e0, e1, e2, e3, e4⟩ := block_positions t
  funext j
  show k1_pay1 (iblk1 V c 0 t) (iblk1 V c 1 t) j
    = prod128 (F := Ideal) (V c main_v17) (V c main_arg7) (((cfg1.win 2).blk t).view.emb j)
  unfold k1_pay1 prod128
  rw [shapeCast_self]
  refine Cert.LibPlainDot.matmul_plain_zero_eq_dotGeneral (M := 50000) (K := 128) (N := 128) (B := 5000) none none _ _ _
    (V c main_v17) (V c main_arg7) j (((cfg1.win 2).blk t).view.emb j) (fun k => ?_) (fun k => ?_)
  · show V c main_v17 (((cfg1.win 0).blk t).view.emb (ix2 (j 0) k)) = V c main_v17 (ix2 ((((cfg1.win 2).blk t).view.emb j) 0) k)
    refine congrArg (V c main_v17) ?_
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  · show V c main_arg7 (((cfg1.win 1).blk t).view.emb (ix2 k (j 1))) = V c main_arg7 (ix2 k ((((cfg1.win 2).blk t).view.emb j) 1))
    refine congrArg (V c main_arg7) ?_
    funext a; apply Fin.ext
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega

/-- An index of the result array is in point `t`'s block iff each coordinate is in the block's range on its axis. -/
theorem mem_block (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v18).slice (win1_2.rect t)).set ↔ _
  rw [View.set_slice_whole, Rect.mem_set_unit]
  exact Iff.rfl

/-- Row r lies in the block of the point whose row block is r / 5000: the blocks cover the array. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := block_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The result array after the region: the whole product of the two arrays as the region finds them. -/
theorem product (c : Dev nD) :
    (dat1 (F := Ideal) V c).arrAt 2 cfg1.N = prod128 (F := Ideal) (V c main_v17) (V c main_arg7) :=
  (dat1 (F := Ideal) V c).arrAt_eq_of_cover 2 _ (fun t _ => written_eq V c t) covered

end Cert.KernelIdeal.Region1

end
-- ==== Proof.Region2.lean ====
/-
  Product 2 of the pipeline, whole.  The node axis is cut into ten blocks of 5000 rows; grid point t multiplies rows
  5000·t … 5000·t + 4999 of the left array by the whole 128×64 right array, into a zero accumulator, and writes the
  5000×64 block back at the same rows.  At the ideal values a change of format is the identity and the accumulated
  product is the exact sum over the 128 contracted positions, so entry (r, c) of the block written by the point covering
  row r is the entry (r, c) of the product of the two whole arrays; the ten blocks tile the 50000 rows, so the array the
  region leaves is that product.
-/
import proofs.«162428_j26061861552728_1_alg».proof.Proof.Gen.KernelIdeal.Frame
import proofs.«162428_j26061861552728_1_alg».proof.Proof.LibPlainDot
import proofs.«162428_j26061861552728_1_alg».proof.Proof.Layers
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.ShloMosaic.ValueIdx Idealize.SL.Sem
open Cert.KernelIdeal Cert.KernelIdeal.Gen Cert.KernelIdeal.Layers
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the left operand's block and the result's block sit at the same row block and at
    column block zero; the right operand's one block is the whole array. -/
theorem block_positions : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0 :=
  (by decide +kernel : ∀ t : Fin grid2.N, _)

/-- Every one of the ten row blocks is some point's. -/
theorem block_onto : ∀ q : Fin 10, ∃ t : Fin cfg2.N, win2_2.index t = ![q.val, 0] :=
  (by decide +kernel : ∀ q : Fin 10, ∃ t : Fin grid2.N, win2_2.index t = ![q.val, 0])

/-- What point `t` writes back is block `t` of the whole product of the two arrays as the region finds them. -/
theorem written_eq (c : Dev nD) (t : Fin cfg2.N) :
    (dat2 (F := Ideal) V c).flushed 2 t
      = ((cfg2.win 2).blk t).view.read (Elt Ideal) (prod64 (F := Ideal) (V c main_v35) (V c main_arg9)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x64) origin]
  obtain ⟨e0, e1, e2, e3, e4⟩ := block_positions t
  funext j
  show k2_pay1 (iblk2 V c 0 t) (iblk2 V c 1 t) j
    = prod64 (F := Ideal) (V c main_v35) (V c main_arg9) (((cfg2.win 2).blk t).view.emb j)
  unfold k2_pay1 prod64
  rw [shapeCast_self]
  refine Cert.LibPlainDot.matmul_plain_zero_eq_dotGeneral (M := 50000) (K := 128) (N := 64) (B := 5000) none none _ _ _
    (V c main_v35) (V c main_arg9) j (((cfg2.win 2).blk t).view.emb j) (fun k => ?_) (fun k => ?_)
  · show V c main_v35 (((cfg2.win 0).blk t).view.emb (ix2 (j 0) k)) = V c main_v35 (ix2 ((((cfg2.win 2).blk t).view.emb j) 0) k)
    refine congrArg (V c main_v35) ?_
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · show V c main_arg9 (((cfg2.win 1).blk t).view.emb (ix2 k (j 1))) = V c main_arg9 (ix2 k ((((cfg2.win 2).blk t).view.emb j) 1))
    refine congrArg (V c main_arg9) ?_
    funext a; apply Fin.ext
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega

/-- An index of the result array is in point `t`'s block iff each coordinate is in the block's range on its axis. -/
theorem mem_block (t : Fin cfg2.N) (i : S50000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v36).slice (win2_2.rect t)).set ↔ _
  rw [View.set_slice_whole, Rect.mem_set_unit]
  exact Iff.rfl

/-- Row r lies in the block of the point whose row block is r / 5000: the blocks cover the array. -/
theorem covered (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := block_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The result array after the region: the whole product of the two arrays as the region finds them. -/
theorem product (c : Dev nD) :
    (dat2 (F := Ideal) V c).arrAt 2 cfg2.N = prod64 (F := Ideal) (V c main_v35) (V c main_arg9) :=
  (dat2 (F := Ideal) V c).arrAt_eq_of_cover 2 _ (fun t _ => written_eq V c t) covered

end Cert.KernelIdeal.Region2

end
-- ==== Proof.Region3.lean ====
/-
  Product 3 of the pipeline, whole.  The node axis is cut into ten blocks of 5000 rows; grid point t multiplies rows
  5000·t … 5000·t + 4999 of the left array by the whole 128×64 right array, into a zero accumulator, and writes the
  5000×64 block back at the same rows.  At the ideal values a change of format is the identity and the accumulated
  product is the exact sum over the 128 contracted positions, so entry (r, c) of the block written by the point covering
  row r is the entry (r, c) of the product of the two whole arrays; the ten blocks tile the 50000 rows, so the array the
  region leaves is that product.
-/
import proofs.«162428_j26061861552728_1_alg».proof.Proof.Gen.KernelIdeal.Frame
import proofs.«162428_j26061861552728_1_alg».proof.Proof.LibPlainDot
import proofs.«162428_j26061861552728_1_alg».proof.Proof.Layers
import Idealize.ShloMosaic.Lib.Pipeline.Value
import Idealize.ShloMosaic.Lib.ValueIdx

set_option maxRecDepth 16384

noncomputable section

namespace Cert.KernelIdeal.Region3

open Idealize.ShloMosaic Idealize.ShloMosaic.TcCoe Idealize.ShloMosaic.ValueIdx Idealize.SL.Sem
open Cert.KernelIdeal Cert.KernelIdeal.Gen Cert.KernelIdeal.Layers
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the left operand's block and the result's block sit at the same row block and at
    column block zero; the right operand's one block is the whole array. -/
theorem block_positions : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0 :=
  (by decide +kernel : ∀ t : Fin grid3.N, _)

/-- Every one of the ten row blocks is some point's. -/
theorem block_onto : ∀ q : Fin 10, ∃ t : Fin cfg3.N, win3_2.index t = ![q.val, 0] :=
  (by decide +kernel : ∀ q : Fin 10, ∃ t : Fin grid3.N, win3_2.index t = ![q.val, 0])

/-- What point `t` writes back is block `t` of the whole product of the two arrays as the region finds them. -/
theorem written_eq (c : Dev nD) (t : Fin cfg3.N) :
    (dat3 (F := Ideal) V c).flushed 2 t
      = ((cfg3.win 2).blk t).view.read (Elt Ideal) (prod64 (F := Ideal) (V c main_v35) (V c main_arg11)) := by
  show (cfg3.win 2).cut (grid3.coords t) ((dat3 V c).after 2 t) = _
  rw [after3_2]
  unfold out3_2
  rw [View.canon_unit_zero origin]
  simp only [View.ld_unit_zero (S := S5000x128) origin, View.ld_unit_zero (S := S128x64) origin]
  obtain ⟨e0, e1, e2, e3, e4⟩ := block_positions t
  funext j
  show k3_pay1 (iblk3 V c 0 t) (iblk3 V c 1 t) j
    = prod64 (F := Ideal) (V c main_v35) (V c main_arg11) (((cfg3.win 2).blk t).view.emb j)
  unfold k3_pay1 prod64
  rw [shapeCast_self]
  refine Cert.LibPlainDot.matmul_plain_zero_eq_dotGeneral (M := 50000) (K := 128) (N := 64) (B := 5000) none none _ _ _
    (V c main_v35) (V c main_arg11) j (((cfg3.win 2).blk t).view.emb j) (fun k => ?_) (fun k => ?_)
  · show V c main_v35 (((cfg3.win 0).blk t).view.emb (ix2 (j 0) k)) = V c main_v35 (ix2 ((((cfg3.win 2).blk t).view.emb j) 0) k)
    refine congrArg (V c main_v35) ?_
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * k.val = k.val; omega
  · show V c main_arg11 (((cfg3.win 1).blk t).view.emb (ix2 k (j 1))) = V c main_arg11 (ix2 k ((((cfg3.win 2).blk t).view.emb j) 1))
    refine congrArg (V c main_arg11) ?_
    funext a; apply Fin.ext
    match a with
    | ⟨0, _⟩ => show win3_1.index t (0 : Fin 2) * 128 + 1 * k.val = k.val; omega
    | ⟨1, _⟩ => show win3_1.index t (1 : Fin 2) * 64 + 1 * (j 1).val = win3_2.index t (1 : Fin 2) * 64 + 1 * (j 1).val; omega

/-- An index of the result array is in point `t`'s block iff each coordinate is in the block's range on its axis. -/
theorem mem_block (t : Fin cfg3.N) (i : S50000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v53).slice (win3_2.rect t)).set ↔ _
  rw [View.set_slice_whole, Rect.mem_set_unit]
  exact Iff.rfl

/-- Row r lies in the block of the point whose row block is r / 5000: the blocks cover the array. -/
theorem covered (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := block_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- The result array after the region: the whole product of the two arrays as the region finds them. -/
theorem product (c : Dev nD) :
    (dat3 (F := Ideal) V c).arrAt 2 cfg3.N = prod64 (F := Ideal) (V c main_v35) (V c main_arg11) :=
  (dat3 (F := Ideal) V c).arrAt_eq_of_cover 2 _ (fun t _ => written_eq V c t) covered

end Cert.KernelIdeal.Region3

end
-- ==== Proof.Region4.lean ====
/-
  Product 4 of the pipeline, whole.  The node axis is cut into ten blocks of 5000 rows; grid point t multiplies rows
  5000·t … 5000·t + 4999 of the left array by the whole 512×128 right array, into a zero accumulator, and writes the
  5000×128 block back at the same rows.  At the ideal values a change of format is the identity and the accumulated
  product is the exact sum over the 512 contracted positions, so entry (r, c) of the block written by the point covering
  row r is the entry (r, c) of the product of the two whole arrays; the ten blocks tile the 50000 rows, so the array the
  region leaves is that product.
-/
import proofs.«162428_j26061861552728_1_alg».proof.Proof.Gen.KernelIdeal.Frame
import proofs.«162428_j26061861552728_1_alg».proof.Proof.LibPlainDot
import proofs.«162428_j26061861552728_1_alg».proof.Proof.Layers
import Idealize.ShloMosaic.Lib.Pipeline.Value
import Idealize.ShloMosaic.Lib.ValueIdx

set_option maxRecDepth 16384

noncomputable section

namespace Cert.KernelIdeal.Region4

open Idealize.ShloMosaic Idealize.ShloMosaic.TcCoe Idealize.ShloMosaic.ValueIdx Idealize.SL.Sem
open Cert.KernelIdeal Cert.KernelIdeal.Gen Cert.KernelIdeal.Layers
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the left operand's block and the result's block sit at the same row block and at
    column block zero; the right operand's one block is the whole array. -/
theorem block_positions : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0 :=
  (by decide +kernel : ∀ t : Fin grid4.N, _)

/-- Every one of the ten row blocks is some point's. -/
theorem block_onto : ∀ q : Fin 10, ∃ t : Fin cfg4.N, win4_2.index t = ![q.val, 0] :=
  (by decide +kernel : ∀ q : Fin 10, ∃ t : Fin grid4.N, win4_2.index t = ![q.val, 0])

/-- What point `t` writes back is block `t` of the whole product of the two arrays as the region finds them. -/
theorem written_eq (c : Dev nD) (t : Fin cfg4.N) :
    (dat4 (F := Ideal) V c).flushed 2 t
      = ((cfg4.win 2).blk t).view.read (Elt Ideal) (prod512 (F := Ideal) (V c main_arg1) (V c main_arg5)) := by
  show (cfg4.win 2).cut (grid4.coords t) ((dat4 V c).after 2 t) = _
  rw [after4_2]
  unfold out4_2
  rw [View.canon_unit_zero origin]
  simp only [View.ld_unit_zero (S := S5000x512) origin, View.ld_unit_zero (S := S512x128) origin]
  obtain ⟨e0, e1, e2, e3, e4⟩ := block_positions t
  funext j
  show k4_pay1 (iblk4 V c 0 t) (iblk4 V c 1 t) j
    = prod512 (F := Ideal) (V c main_arg1) (V c main_arg5) (((cfg4.win 2).blk t).view.emb j)
  unfold k4_pay1 prod512
  refine Cert.LibPlainDot.matmul_plain_zero_eq_dotGeneral (M := 50000) (K := 512) (N := 128) (B := 5000) none none _ _ _
    (V c main_arg1) (V c main_arg5) j (((cfg4.win 2).blk t).view.emb j) (fun k => ?_) (fun k => ?_)
  · show V c main_arg1 (((cfg4.win 0).blk t).view.emb (ix2 (j 0) k)) = V c main_arg1 (ix2 ((((cfg4.win 2).blk t).view.emb j) 0) k)
    refine congrArg (V c main_arg1) ?_
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 512 + 1 * k.val = k.val; omega
  · show V c main_arg5 (((cfg4.win 1).blk t).view.emb (ix2 k (j 1))) = V c main_arg5 (ix2 k ((((cfg4.win 2).blk t).view.emb j) 1))
    refine congrArg (V c main_arg5) ?_
    funext a; apply Fin.ext
    match a with
    | ⟨0, _⟩ => show win4_1.index t (0 : Fin 2) * 512 + 1 * k.val = k.val; omega
    | ⟨1, _⟩ => show win4_1.index t (1 : Fin 2) * 128 + 1 * (j 1).val = win4_2.index t (1 : Fin 2) * 128 + 1 * (j 1).val; omega

/-- An index of the result array is in point `t`'s block iff each coordinate is in the block's range on its axis. -/
theorem mem_block (t : Fin cfg4.N) (i : S50000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v70).slice (win4_2.rect t)).set ↔ _
  rw [View.set_slice_whole, Rect.mem_set_unit]
  exact Iff.rfl

/-- Row r lies in the block of the point whose row block is r / 5000: the blocks cover the array. -/
theorem covered (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, ht⟩ := block_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_block]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- The result array after the region: the whole product of the two arrays as the region finds them. -/
theorem product (c : Dev nD) :
    (dat4 (F := Ideal) V c).arrAt 2 cfg4.N = prod512 (F := Ideal) (V c main_arg1) (V c main_arg5) :=
  (dat4 (F := Ideal) V c).arrAt_eq_of_cover 2 _ (fun t _ => written_eq V c t) covered

end Cert.KernelIdeal.Region4

end
-- ==== Proof.Region5.lean ====
/-
  Product 5 of the pipeline, whole.  The node axis is cut into ten blocks of 5000 rows; grid point t multiplies rows
  5000·t … 5000·t + 4999 of the left array by the whole 128×128 right array, into a zero accumulator, and writes the
  5000×128 block back at the same rows.  At the ideal values a change of format is the identity and the accumulated
  product is the exact sum over the 128 contracted positions, so entry (r, c) of the block written by the point covering
  row r is the entry (r, c) of the product of the two whole arrays; the ten blocks tile the 50000 rows, so the array the
  region leaves is that product.
-/
import proofs.«162428_j26061861552728_1_alg».proof.Proof.Gen.KernelIdeal.Frame
import proofs.«162428_j26061861552728_1_alg».proof.Proof.LibPlainDot
import proofs.«162428_j26061861552728_1_alg».proof.Proof.Layers
import Idealize.ShloMosaic.Lib.Pipeline.Value
import Idealize.ShloMosaic.Lib.ValueIdx

set_option maxRecDepth 16384

noncomputable section

namespace Cert.KernelIdeal.Region5

open Idealize.ShloMosaic Idealize.ShloMosaic.TcCoe Idealize.ShloMosaic.ValueIdx Idealize.SL.Sem
open Cert.KernelIdeal Cert.KernelIdeal.Gen Cert.KernelIdeal.Layers
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the left operand's block and the result's block sit at the same row block and at
    column block zero; the right operand's one block is the whole array. -/
theorem block_positions : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (1 : Fin 2) = 0 :=
  (by decide +kernel : ∀ t : Fin grid5.N, _)

/-- Every one of the ten row blocks is some point's. -/
theorem block_onto : ∀ q : Fin 10, ∃ t : Fin cfg5.N, win5_2.index t = ![q.val, 0] :=
  (by decide +kernel : ∀ q : Fin 10, ∃ t : Fin grid5.N, win5_2.index t = ![q.val, 0])

/-- What point `t` writes back is block `t` of the whole product of the two arrays as the region finds them. -/
theorem written_eq (c : Dev nD) (t : Fin cfg5.N) :
    (dat5 (F := Ideal) V c).flushed 2 t
      = ((cfg5.win 2).blk t).view.read (Elt Ideal) (prod128 (F := Ideal) (V c main_v87) (V c main_arg7)) := by
  show (cfg5.win 2).cut (grid5.coords t) ((dat5 V c).after 2 t) = _
  rw [after5_2]
  unfold out5_2
  rw [View.canon_unit_zero origin]
  simp only [View.ld_unit_zero (S := S5000x128) origin, View.ld_unit_zero (S := S128x128) origin]
  obtain ⟨e0, e1, e2, e3, e4⟩ := block_positions t
  funext j
  show k5_pay1 (iblk5 V c 0 t) (iblk5 V c 1 t) j
    = prod128 (F := Ideal) (V c main_v87) (V c main_arg7) (((cfg5.win 2).blk t).view.emb j)
  unfold k5_pay1 prod128
  rw [shapeCast_self]
  refine Cert.LibPlainDot.matmul_plain_zero_eq_dotGeneral (M := 50000) (K := 128) (N := 128) (B := 5000) none none _ _ _
    (V c main_v87) (V c main_arg7) j (((cfg5.win 2).blk t).view.emb j) (fun k => ?_) (fun k => ?_)
  · show V c main_v87 (((cfg5.win 0).blk t).view.emb (ix2 (j 0) k)) = V c main_v87 (ix2 ((((cfg5.win 2).blk t).view.emb j) 0) k)
    refine congrArg (V c main_v87) ?_
    funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 128 + 1 * k.val = k.val; omega
  · show V c main_arg7 (((cfg5.win 1).blk t).view.emb (ix2 k (j 1))) = V c main_arg7 (ix2 k ((((cfg5.win 2).blk t).view.emb j) 1))
    refine congrArg (V c main_arg7) ?_
    funext a; apply Fin.ext
    match a with
    | ⟨0, _⟩ => show win5_1.index t (0 : Fin 2) * 128 + 1 * k.val = k.val; omega
    | ⟨1, _⟩ => show win5_1.index t (1 : Fin 2) * 128 + 1 * (j 1).val = win5_2.index t (1 : Fin 2) * 128 + 1 * (j 1).val; omega

/-- An index of the result array is in point `t`'s block iff each coordinate is in the block's range on its axis. -/
theorem mem_block (t : Fin cfg5.N) (i : S50000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v88).slice (win5_2.rect t)).set ↔ _
  rw [View.set_slice_whole, Rect.mem_set_unit]
  exact Iff.rfl

/-- Row r lies in the block of the point whose row block is r / 5000: the blocks cover the array. -/
theorem covered (i : S50000x128.Idx) :
    ∃ t : Fin cfg5.N, (cfg5.win 2).flush t = true ∧ i ∈ ((cfg5.win 2).blk t).view.set := by
  have hi0 : (i 0).val < 50000 := (i 0).isLt
  have hi1 : (i 1).val < 128 := (i 1).isLt
  obtain ⟨t, ht⟩ := block_onto ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_block]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- The result array after the region: the whole product of the two arrays as the region finds them. -/
theorem product (c : Dev nD) :
    (dat5 (F := Ideal) V c).arrAt 2 cfg5.N = prod128 (F := Ideal) (V c main_v87) (V c main_arg7) :=
  (dat5 (F := Ideal) V c).arrAt_eq_of_cover 2 _ (fun t _ => written_eq V c t) covered

end Cert.KernelIdeal.Region5

end
-- ==== Proof.Region6.lean ====
/-
  Product 6 of the pipeline, whole.  The node axis is cut into ten blocks of 5000 rows; grid point t multiplies rows
  5000·t … 5000·t + 4999 of the left array by the whole 128×64 right array, into a zero accumulator, and writes the
  5000×64 block back at the same rows.  At the ideal values a change of format is the identity and the accumulated
  product is the exact sum over the 128 contracted positions, so entry (r, c) of the block written by the point covering
  row r is the entry (r, c) of the product of the two whole arrays; the ten blocks tile the 50000 rows, so the array the
  region leaves is that product.
-/
import proofs.«162428_j26061861552728_1_alg».proof.Proof.Gen.KernelIdeal.Frame
import proofs.«162428_j26061861552728_1_alg».proof.Proof.LibPlainDot
import proofs.«162428_j26061861552728_1_alg».proof.Proof.Layers
import Idealize.ShloMosaic.Lib.Pipeline.Value
import Idealize.ShloMosaic.Lib.ValueIdx

set_option maxRecDepth 16384

noncomputable section

namespace Cert.KernelIdeal.Region6

open Idealize.ShloMosaic Idealize.ShloMosaic.TcCoe Idealize.ShloMosaic.ValueIdx Idealize.SL.Sem
open Cert.KernelIdeal Cert.KernelIdeal.Gen Cert.KernelIdeal.Layers
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the left operand's block and the result's block sit at the same row block and at
    column block zero; the right operand's one block is the whole array. -/
theorem block_positions : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (1 : Fin 2) = 0 :=
  (by decide +kernel : ∀ t : Fin grid6.N, _)

/-- Every one of the ten row blocks is some point's. -/
theorem block_onto : ∀ q : Fin 10, ∃ t : Fin cfg6.N, win6_2.index t = ![q.val, 0] :=
  (by decide +kernel : ∀ q : Fin 10, ∃ t : Fin grid6.N, win6_2.index t = ![q.val, 0])

/-- What point `t` writes back is block `t` of the whole product of the two arrays as the region finds them. -/
theorem written_eq (c : Dev nD) (t : Fin cfg6.N) :
    (dat6 (F := Ideal) V c).flushed 2 t
      = ((cfg6.win 2).blk t).view.read (Elt Ideal) (prod64 (F := Ideal) (V c main_v105) (V c main_arg9)) := by
  show (cfg6.win 2).cut (grid6.coords t) ((dat6 V c).after 2 t) = _
  rw [after6_2]
  unfold out6_2
  rw [View.canon_unit_zero origin]
  simp only [View.ld_unit_zero (S := S5000x128) origin, View.ld_unit_zero (S := S128x64) origin]
  obtain ⟨e0, e1, e2, e3, e4⟩ := block_positions t
  funext j
  show k6_pay1 (iblk6 V c 0 t) (iblk6 V c 1 t) j
    = prod64 (F := Ideal) (V c main_v105) (V c main_arg9) (((cfg6.win 2).blk t).view.emb j)
  unfold k6_pay1 prod64
  rw [shapeCast_self]
  refine Cert.LibPlainDot.matmul_plain_zero_eq_dotGeneral (M := 50000) (K := 128) (N := 64) (B := 5000) none none _ _ _
    (V c main_v105) (V c main_arg9) j (((cfg6.win 2).blk t).view.emb j) (fun k => ?_) (fun k => ?_)
  · show V c main_v105 (((cfg6.win 0).blk t).view.emb (ix2 (j 0) k)) = V c main_v105 (ix2 ((((cfg6.win 2).blk t).view.emb j) 0) k)
    refine congrArg (V c main_v105) ?_
    funext a; apply Fin.ext
    match a with
    | ⟨0, _⟩ => show win6_0.index t (0 : Fin 2) * 5000 + 1 * (j 0).val = win6_2.index t (0 : Fin 2) * 5000 + 1 * (j 0).val; omega
    | ⟨1, _⟩ => show win6_0.index t (1 : Fin 2) * 128 + 1 * k.val = k.val; omega
  · show V c main_arg9 (((cfg6.win 1).blk t).view.emb (ix2 k (j 1))) = V c main_arg9 (ix2 k ((((cfg6.win 2).blk t).view.emb j) 1))
    refine congrArg (V c main_arg9) ?_
    funext a; apply Fin.ext
    match a with
    | ⟨0, _⟩ => show win6_1.index t (0 : Fin 2) * 128 + 1 * k.val = k.val; omega
    | ⟨1, _⟩ => show win6_1.index t (1 : Fin 2) * 64 + 1 * (j 1).val = win6_2.index t (1 : Fin 2) * 64 + 1 * (j 1).val; omega

/-- An index of the result array is in point `t`'s block iff each coordinate is in the block's range on its axis. -/
theorem mem_block (t : Fin cfg6.N) (i : S50000x64.Idx) :
    i ∈ ((cfg6.win 2).blk t).view.set ↔ ∀ a : Fin 2, win6_2.index t a * S5000x64.size a ≤ (i a).val
      ∧ (i a).val < win6_2.index t a * S5000x64.size a + S5000x64.size a := by
  show i ∈ ((View.whole main_v106).slice (win6_2.rect t)).set ↔ _
  rw [View.set_slice_whole, Rect.mem_set_unit]
  exact Iff.rfl

/-- Row r lies in the block of the point whose row block is r / 5000: the blocks cover the array. -/
theorem covered (i : S50000x64.Idx) :
    ∃ t : Fin cfg6.N, (cfg6.win 2).flush t = true ∧ i ∈ ((cfg6.win 2).blk t).view.set := by
  have hi0 : (i 0).val < 50000 := (i 0).isLt
  have hi1 : (i 1).val < 64 := (i 1).isLt
  obtain ⟨t, ht⟩ := block_onto ⟨(i 0).val / 5000, by omega⟩
  have q0 : win6_2.index t (0 : Fin 2) = (i 0).val / 5000 := congrFun ht 0
  have q1 : win6_2.index t (1 : Fin 2) = 0 := congrFun ht 1
  refine ⟨t, flush6_2 t, ?_⟩
  rw [mem_block]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 64 ≤ (i 1).val ∧ (i 1).val < win6_2.index t (1 : Fin 2) * 64 + 64; omega

/-- The result array after the region: the whole product of the two arrays as the region finds them. -/
theorem product (c : Dev nD) :
    (dat6 (F := Ideal) V c).arrAt 2 cfg6.N = prod64 (F := Ideal) (V c main_v105) (V c main_arg9) :=
  (dat6 (F := Ideal) V c).arrAt_eq_of_cover 2 _ (fun t _ => written_eq V c t) covered

end Cert.KernelIdeal.Region6

end
-- ==== Proof.Region7.lean ====
/-
  Product 7 of the pipeline, whole.  The node axis is cut into ten blocks of 5000 rows; grid point t multiplies rows
  5000·t … 5000·t + 4999 of the left array by the whole 128×64 right array, into a zero accumulator, and writes the
  5000×64 block back at the same rows.  At the ideal values a change of format is the identity and the accumulated
  product is the exact sum over the 128 contracted positions, so entry (r, c) of the block written by the point covering
  row r is the entry (r, c) of the product of the two whole arrays; the ten blocks tile the 50000 rows, so the array the
  region leaves is that product.
-/
import proofs.«162428_j26061861552728_1_alg».proof.Proof.Gen.KernelIdeal.Frame
import proofs.«162428_j26061861552728_1_alg».proof.Proof.LibPlainDot
import proofs.«162428_j26061861552728_1_alg».proof.Proof.Layers
import Idealize.ShloMosaic.Lib.Pipeline.Value
import Idealize.ShloMosaic.Lib.ValueIdx

set_option maxRecDepth 16384

noncomputable section

namespace Cert.KernelIdeal.Region7

open Idealize.ShloMosaic Idealize.ShloMosaic.TcCoe Idealize.ShloMosaic.ValueIdx Idealize.SL.Sem
open Cert.KernelIdeal Cert.KernelIdeal.Gen Cert.KernelIdeal.Layers
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the left operand's block and the result's block sit at the same row block and at
    column block zero; the right operand's one block is the whole array. -/
theorem block_positions : ∀ t : Fin cfg7.N, win7_0.index t (0 : Fin 2) = win7_2.index t (0 : Fin 2)
    ∧ win7_0.index t (1 : Fin 2) = 0
    ∧ win7_1.index t (0 : Fin 2) = 0
    ∧ win7_1.index t (1 : Fin 2) = 0
    ∧ win7_2.index t (1 : Fin 2) = 0 :=
  (by decide +kernel : ∀ t : Fin grid7.N, _)

/-- Every one of the ten row blocks is some point's. -/
theorem block_onto : ∀ q : Fin 10, ∃ t : Fin cfg7.N, win7_2.index t = ![q.val, 0] :=
  (by decide +kernel : ∀ q : Fin 10, ∃ t : Fin grid7.N, win7_2.index t = ![q.val, 0])

/-- What point `t` writes back is block `t` of the whole product of the two arrays as the region finds them. -/
theorem written_eq (c : Dev nD) (t : Fin cfg7.N) :
    (dat7 (F := Ideal) V c).flushed 2 t
      = ((cfg7.win 2).blk t).view.read (Elt Ideal) (prod64 (F := Ideal) (V c main_v105) (V c main_arg11)) := by
  show (cfg7.win 2).cut (grid7.coords t) ((dat7 V c).after 2 t) = _
  rw [after7_2]
  unfold out7_2
  rw [View.canon_unit_zero origin]
  simp only [View.ld_unit_zero (S := S5000x128) origin, View.ld_unit_zero (S := S128x64) origin]
  obtain ⟨e0, e1, e2, e3, e4⟩ := block_positions t
  funext j
  show k7_pay1 (iblk7 V c 0 t) (iblk7 V c 1 t) j
    = prod64 (F := Ideal) (V c main_v105) (V c main_arg11) (((cfg7.win 2).blk t).view.emb j)
  unfold k7_pay1 prod64
  rw [shapeCast_self]
  refine Cert.LibPlainDot.matmul_plain_zero_eq_dotGeneral (M := 50000) (K := 128) (N := 64) (B := 5000) none none _ _ _
    (V c main_v105) (V c main_arg11) j (((cfg7.win 2).blk t).view.emb j) (fun k => ?_) (fun k => ?_)
  · show V c main_v105 (((cfg7.win 0).blk t).view.emb (ix2 (j 0) k)) = V c main_v105 (ix2 ((((cfg7.win 2).blk t).view.emb j) 0) k)
    refine congrArg (V c main_v105) ?_
    funext a; apply Fin.ext
    match a with
    | ⟨0, _⟩ => show win7_0.index t (0 : Fin 2) * 5000 + 1 * (j 0).val = win7_2.index t (0 : Fin 2) * 5000 + 1 * (j 0).val; omega
    | ⟨1, _⟩ => show win7_0.index t (1 : Fin 2) * 128 + 1 * k.val = k.val; omega
  · show V c main_arg11 (((cfg7.win 1).blk t).view.emb (ix2 k (j 1))) = V c main_arg11 (ix2 k ((((cfg7.win 2).blk t).view.emb j) 1))
    refine congrArg (V c main_arg11) ?_
    funext a; apply Fin.ext
    match a with
    | ⟨0, _⟩ => show win7_1.index t (0 : Fin 2) * 128 + 1 * k.val = k.val; omega
    | ⟨1, _⟩ => show win7_1.index t (1 : Fin 2) * 64 + 1 * (j 1).val = win7_2.index t (1 : Fin 2) * 64 + 1 * (j 1).val; omega

/-- An index of the result array is in point `t`'s block iff each coordinate is in the block's range on its axis. -/
theorem mem_block (t : Fin cfg7.N) (i : S50000x64.Idx) :
    i ∈ ((cfg7.win 2).blk t).view.set ↔ ∀ a : Fin 2, win7_2.index t a * S5000x64.size a ≤ (i a).val
      ∧ (i a).val < win7_2.index t a * S5000x64.size a + S5000x64.size a := by
  show i ∈ ((View.whole main_v123).slice (win7_2.rect t)).set ↔ _
  rw [View.set_slice_whole, Rect.mem_set_unit]
  exact Iff.rfl

/-- Row r lies in the block of the point whose row block is r / 5000: the blocks cover the array. -/
theorem covered (i : S50000x64.Idx) :
    ∃ t : Fin cfg7.N, (cfg7.win 2).flush t = true ∧ i ∈ ((cfg7.win 2).blk t).view.set := by
  have hi0 : (i 0).val < 50000 := (i 0).isLt
  have hi1 : (i 1).val < 64 := (i 1).isLt
  obtain ⟨t, ht⟩ := block_onto ⟨(i 0).val / 5000, by omega⟩
  have q0 : win7_2.index t (0 : Fin 2) = (i 0).val / 5000 := congrFun ht 0
  have q1 : win7_2.index t (1 : Fin 2) = 0 := congrFun ht 1
  refine ⟨t, flush7_2 t, ?_⟩
  rw [mem_block]
  intro a
  match a with
  | ⟨0, _⟩ => show win7_2.index t (0 : Fin 2) * 5000 ≤ (i 0).val ∧ (i 0).val < win7_2.index t (0 : Fin 2) * 5000 + 5000; omega
  | ⟨1, _⟩ => show win7_2.index t (1 : Fin 2) * 64 ≤ (i 1).val ∧ (i 1).val < win7_2.index t (1 : Fin 2) * 64 + 64; omega

/-- The result array after the region: the whole product of the two arrays as the region finds them. -/
theorem product (c : Dev nD) :
    (dat7 (F := Ideal) V c).arrAt 2 cfg7.N = prod64 (F := Ideal) (V c main_v105) (V c main_arg11) :=
  (dat7 (F := Ideal) V c).arrAt_eq_of_cover 2 _ (fun t _ => written_eq V c t) covered

end Cert.KernelIdeal.Region7

end
-- ==== Proof.Values.lean ====
/-
  The four results of the run as functions of the argument arrays.  Each product's result array is the whole product of
  the arrays it read (one module per product); each host stretch applies one layer's aggregation to it; the argument
  arrays are at their launch contents wherever they are read; and a result is unchanged from the stretch that computes it
  to the end.  Composing these along the twenty segments gives, for either branch, head (hidden x) on the branch's input.
-/
import proofs.«162428_j26061861552728_1_alg».proof.Proof.Gen.KernelIdeal.Frame
import proofs.«162428_j26061861552728_1_alg».proof.Proof.Carry
import proofs.«162428_j26061861552728_1_alg».proof.Proof.HostRead
import proofs.«162428_j26061861552728_1_alg».proof.Proof.Branch
import proofs.«162428_j26061861552728_1_alg».proof.Proof.Region0
import proofs.«162428_j26061861552728_1_alg».proof.Proof.Region1
import proofs.«162428_j26061861552728_1_alg».proof.Proof.Region2
import proofs.«162428_j26061861552728_1_alg».proof.Proof.Region3
import proofs.«162428_j26061861552728_1_alg».proof.Proof.Region4
import proofs.«162428_j26061861552728_1_alg».proof.Proof.Region5
import proofs.«162428_j26061861552728_1_alg».proof.Proof.Region6
import proofs.«162428_j26061861552728_1_alg».proof.Proof.Region7

set_option maxRecDepth 16384

noncomputable section

namespace Cert.KernelIdeal.Values

open Idealize.ShloMosaic Idealize.ShloMosaic.TcCoe Idealize.SL.Sem
open Cert.KernelIdeal Cert.KernelIdeal.Gen Cert.KernelIdeal.Layers

variable (m : (ℓ : Loc nD τ sig) → Buf (Elt Ideal) ℓ) (ρ : Dev nD → PrngReg)

/-- The first branch's hidden activations, when its first head's product reads them. -/
theorem hidden_sp (c : Dev nD) : W6 m ρ c (Proc.devRef .tc main_v35) = hidden (W0 m ρ c (Proc.devRef .tc main_arg0)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) := by
  have p0 : W1 m ρ c (Proc.devRef .tc main_v0) = prod512 (W0 m ρ c (Proc.devRef .tc main_arg0)) (W0 m ρ c (Proc.devRef .tc main_arg5)) :=
    (W1_arr m ρ c 2).trans (Region0.product (V0 m ρ) c)
  have e0 : W3 m ρ c (Proc.devRef .tc main_v17) = relu128 (agg128 (W1 m ρ c (Proc.devRef .tc main_v0)) (W1 m ρ c (Proc.devRef .tc main_arg2)) (W1 m ρ c (Proc.devRef .tc main_arg3)) (W1 m ρ c (Proc.devRef .tc main_arg4)) (W1 m ρ c (Proc.devRef .tc main_arg6))) := HostRead.hidden_a (W1 m ρ c)
  have p1 : W4 m ρ c (Proc.devRef .tc main_v18) = prod128 (W3 m ρ c (Proc.devRef .tc main_v17)) (W3 m ρ c (Proc.devRef .tc main_arg7)) :=
    (W4_arr m ρ c 2).trans (Region1.product (V3 m ρ) c)
  have e1 : W6 m ρ c (Proc.devRef .tc main_v35) = relu128 (agg128 (W4 m ρ c (Proc.devRef .tc main_v18)) (W4 m ρ c (Proc.devRef .tc main_arg2)) (W4 m ρ c (Proc.devRef .tc main_arg3)) (W4 m ρ c (Proc.devRef .tc main_arg4)) (W4 m ρ c (Proc.devRef .tc main_arg8))) := HostRead.hidden_b (W4 m ρ c)
  rw [e1, p1, e0, p0, Carry.args1 m ρ c main_arg2 (by decide), Carry.args1 m ρ c main_arg3 (by decide), Carry.args1 m ρ c main_arg4 (by decide), Carry.args1 m ρ c main_arg6 (by decide), Carry.args3 m ρ c main_arg7 (by decide), Carry.args4 m ρ c main_arg2 (by decide), Carry.args4 m ρ c main_arg3 (by decide), Carry.args4 m ρ c main_arg4 (by decide), Carry.args4 m ρ c main_arg8 (by decide)]
  rfl

/-- The second branch's hidden activations. -/
theorem hidden_aug (c : Dev nD) : W16 m ρ c (Proc.devRef .tc main_v105) = hidden (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) := by
  have p0 : W11 m ρ c (Proc.devRef .tc main_v70) = prod512 (W10 m ρ c (Proc.devRef .tc main_arg1)) (W10 m ρ c (Proc.devRef .tc main_arg5)) :=
    (W11_arr m ρ c 2).trans (Region4.product (V10 m ρ) c)
  have e0 : W13 m ρ c (Proc.devRef .tc main_v87) = relu128 (agg128 (W11 m ρ c (Proc.devRef .tc main_v70)) (W11 m ρ c (Proc.devRef .tc main_arg2)) (W11 m ρ c (Proc.devRef .tc main_arg3)) (W11 m ρ c (Proc.devRef .tc main_arg4)) (W11 m ρ c (Proc.devRef .tc main_arg6))) := HostRead.hidden_c (W11 m ρ c)
  have p1 : W14 m ρ c (Proc.devRef .tc main_v88) = prod128 (W13 m ρ c (Proc.devRef .tc main_v87)) (W13 m ρ c (Proc.devRef .tc main_arg7)) :=
    (W14_arr m ρ c 2).trans (Region5.product (V13 m ρ) c)
  have e1 : W16 m ρ c (Proc.devRef .tc main_v105) = relu128 (agg128 (W14 m ρ c (Proc.devRef .tc main_v88)) (W14 m ρ c (Proc.devRef .tc main_arg2)) (W14 m ρ c (Proc.devRef .tc main_arg3)) (W14 m ρ c (Proc.devRef .tc main_arg4)) (W14 m ρ c (Proc.devRef .tc main_arg8))) := HostRead.hidden_d (W14 m ρ c)
  rw [e1, p1, e0, p0, Carry.args10 m ρ c main_arg1 (by decide), Carry.args10 m ρ c main_arg5 (by decide), Carry.args11 m ρ c main_arg2 (by decide), Carry.args11 m ρ c main_arg3 (by decide), Carry.args11 m ρ c main_arg4 (by decide), Carry.args11 m ρ c main_arg6 (by decide), Carry.args13 m ρ c main_arg7 (by decide), Carry.args14 m ρ c main_arg2 (by decide), Carry.args14 m ρ c main_arg3 (by decide), Carry.args14 m ρ c main_arg4 (by decide), Carry.args14 m ρ c main_arg8 (by decide)]
  rfl

/-- Result 0: the first head on the first branch. -/
theorem result0 (c : Dev nD) : W20 m ρ c (Proc.devRef .tc main_v52) = head (hidden (W0 m ρ c (Proc.devRef .tc main_arg0)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8))) (W0 m ρ c (Proc.devRef .tc main_arg2)) (W0 m ρ c (Proc.devRef .tc main_arg3)) (W0 m ρ c (Proc.devRef .tc main_arg4)) (W0 m ρ c (Proc.devRef .tc main_arg9)) (W0 m ρ c (Proc.devRef .tc main_arg10)) := by
  have p : W7 m ρ c (Proc.devRef .tc main_v36) = prod64 (W6 m ρ c (Proc.devRef .tc main_v35)) (W6 m ρ c (Proc.devRef .tc main_arg9)) :=
    (W7_arr m ρ c 2).trans (Region2.product (V6 m ρ) c)
  have e : W8 m ρ c (Proc.devRef .tc main_v52) = agg64 (W7 m ρ c (Proc.devRef .tc main_v36)) (W7 m ρ c (Proc.devRef .tc main_arg2)) (W7 m ρ c (Proc.devRef .tc main_arg3)) (W7 m ρ c (Proc.devRef .tc main_arg4)) (W7 m ρ c (Proc.devRef .tc main_arg10)) := HostRead.head_a (W7 m ρ c)
  rw [Carry.result0_kept, e, p, hidden_sp, Carry.args6 m ρ c main_arg9 (by decide), Carry.args7 m ρ c main_arg2 (by decide), Carry.args7 m ρ c main_arg3 (by decide), Carry.args7 m ρ c main_arg4 (by decide), Carry.args7 m ρ c main_arg10 (by decide)]
  rfl

/-- Result 1: the second head on the first branch. -/
theorem result1 (c : Dev nD) : W20 m ρ c (Proc.devRef .tc main_v69) = head (hidden (W0 m ρ c (Proc.devRef .tc main_arg0)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8))) (W0 m ρ c (Proc.devRef .tc main_arg2)) (W0 m ρ c (Proc.devRef .tc main_arg3)) (W0 m ρ c (Proc.devRef .tc main_arg4)) (W0 m ρ c (Proc.devRef .tc main_arg11)) (W0 m ρ c (Proc.devRef .tc main_arg12)) := by
  have p : W9 m ρ c (Proc.devRef .tc main_v53) = prod64 (W8 m ρ c (Proc.devRef .tc main_v35)) (W8 m ρ c (Proc.devRef .tc main_arg11)) :=
    (W9_arr m ρ c 2).trans (Region3.product (V8 m ρ) c)
  have e : W10 m ρ c (Proc.devRef .tc main_v69) = agg64 (W9 m ρ c (Proc.devRef .tc main_v53)) (W9 m ρ c (Proc.devRef .tc main_arg2)) (W9 m ρ c (Proc.devRef .tc main_arg3)) (W9 m ρ c (Proc.devRef .tc main_arg4)) (W9 m ρ c (Proc.devRef .tc main_arg12)) := HostRead.head_b (W9 m ρ c)
  rw [Carry.result1_kept, e, p, Carry.hidden_sp_kept, hidden_sp, Carry.args8 m ρ c main_arg11 (by decide), Carry.args9 m ρ c main_arg2 (by decide), Carry.args9 m ρ c main_arg3 (by decide), Carry.args9 m ρ c main_arg4 (by decide), Carry.args9 m ρ c main_arg12 (by decide)]
  rfl

/-- Result 2: the first head on the second branch. -/
theorem result2 (c : Dev nD) : W20 m ρ c (Proc.devRef .tc main_v122) = head (hidden (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8))) (W0 m ρ c (Proc.devRef .tc main_arg2)) (W0 m ρ c (Proc.devRef .tc main_arg3)) (W0 m ρ c (Proc.devRef .tc main_arg4)) (W0 m ρ c (Proc.devRef .tc main_arg9)) (W0 m ρ c (Proc.devRef .tc main_arg10)) := by
  have p : W17 m ρ c (Proc.devRef .tc main_v106) = prod64 (W16 m ρ c (Proc.devRef .tc main_v105)) (W16 m ρ c (Proc.devRef .tc main_arg9)) :=
    (W17_arr m ρ c 2).trans (Region6.product (V16 m ρ) c)
  have e : W18 m ρ c (Proc.devRef .tc main_v122) = agg64 (W17 m ρ c (Proc.devRef .tc main_v106)) (W17 m ρ c (Proc.devRef .tc main_arg2)) (W17 m ρ c (Proc.devRef .tc main_arg3)) (W17 m ρ c (Proc.devRef .tc main_arg4)) (W17 m ρ c (Proc.devRef .tc main_arg10)) := HostRead.head_c (W17 m ρ c)
  rw [Carry.result2_kept, e, p, hidden_aug, Carry.args16 m ρ c main_arg9 (by decide), Carry.args17 m ρ c main_arg2 (by decide), Carry.args17 m ρ c main_arg3 (by decide), Carry.args17 m ρ c main_arg4 (by decide), Carry.args17 m ρ c main_arg10 (by decide)]
  rfl

/-- Result 3: the second head on the second branch. -/
theorem result3 (c : Dev nD) : W20 m ρ c (Proc.devRef .tc main_v139) = head (hidden (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8))) (W0 m ρ c (Proc.devRef .tc main_arg2)) (W0 m ρ c (Proc.devRef .tc main_arg3)) (W0 m ρ c (Proc.devRef .tc main_arg4)) (W0 m ρ c (Proc.devRef .tc main_arg11)) (W0 m ρ c (Proc.devRef .tc main_arg12)) := by
  have p : W19 m ρ c (Proc.devRef .tc main_v123) = prod64 (W18 m ρ c (Proc.devRef .tc main_v105)) (W18 m ρ c (Proc.devRef .tc main_arg11)) :=
    (W19_arr m ρ c 2).trans (Region7.product (V18 m ρ) c)
  have e : W20 m ρ c (Proc.devRef .tc main_v139) = agg64 (W19 m ρ c (Proc.devRef .tc main_v123)) (W19 m ρ c (Proc.devRef .tc main_arg2)) (W19 m ρ c (Proc.devRef .tc main_arg3)) (W19 m ρ c (Proc.devRef .tc main_arg4)) (W19 m ρ c (Proc.devRef .tc main_arg12)) := HostRead.head_d (W19 m ρ c)
  rw [e, p, Carry.hidden_aug_kept, hidden_aug, Carry.args18 m ρ c main_arg11 (by decide), Carry.args19 m ρ c main_arg2 (by decide), Carry.args19 m ρ c main_arg3 (by decide), Carry.args19 m ρ c main_arg4 (by decide), Carry.args19 m ρ c main_arg12 (by decide)]
  rfl

end Cert.KernelIdeal.Values

end
-- ==== Proof.RefValue.lean ====
/-
  The reference's run, read in the same vocabulary.  The reference applies to its argument arrays the same layers: a
  whole product where the other program runs a tiled one, then the same aggregation and clamp.  Its four results are
  therefore head (hidden x) on each branch's input, the very terms (operation by operation) that the generated run states.
-/
import proofs.«162428_j26061861552728_1_alg».proof.Proof.Gen.ReferenceIdeal.Run
import proofs.«162428_j26061861552728_1_alg».proof.Proof.Branch
import Idealize.ShloMosaic.PureOps.Ideal

set_option maxRecDepth 16384

noncomputable section

namespace Cert.ReferenceIdeal.RefValue

open Idealize.ShloMosaic Idealize.ShloMosaic.TcCoe Idealize.SL.Sem
open Cert.KernelIdeal.Layers

set_option maxHeartbeats 4000000 in
/-- Every weakly fair execution of the reference terminates with each result at head (hidden x) of its branch's input and
    the argument arrays unchanged. -/
theorem run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      fun r => ∀ c : Dev Cert.ReferenceIdeal.nD,
        r.2.mem ((c.tc : Thread Cert.ReferenceIdeal.nD Cert.ReferenceIdeal.τ).loc Cert.ReferenceIdeal.main_v52) = head (hidden (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))
        ∧ r.2.mem ((c.tc : Thread Cert.ReferenceIdeal.nD Cert.ReferenceIdeal.τ).loc Cert.ReferenceIdeal.main_v69) = head (hidden (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
        ∧ r.2.mem ((c.tc : Thread Cert.ReferenceIdeal.nD Cert.ReferenceIdeal.τ).loc Cert.ReferenceIdeal.main_v122) = head (hidden (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))
        ∧ r.2.mem ((c.tc : Thread Cert.ReferenceIdeal.nD Cert.ReferenceIdeal.τ).loc Cert.ReferenceIdeal.main_v139) = head (hidden (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12) :=
  (θ_run Cert.ReferenceIdeal.defs _ _).mono
    (fun _ h c => ⟨(h c).1.trans rfl, (h c).2.1.trans rfl, (h c).2.2.1.trans rfl, (h c).2.2.2.1.trans rfl, (h c).2.2.2.2⟩)
    (Cert.ReferenceIdeal.Value.run (F := Ideal) m' ρ')

end Cert.ReferenceIdeal.RefValue

end
-- ==== Proof.lean ====
/-
  Two graph-convolution branches (sparse and augmented features) through the same four layers: each layer multiplies the
  node features by a weight matrix, gathers for every edge the row of its source node, scales it by the edge weight, adds
  it into the row of the edge's target node, and adds a bias; the two hidden layers clamp at zero.  One program computes
  each product on the vector unit, ten blocks of 5000 rows at a time, from operands narrowed to a shorter float format and
  accumulated from zero; the reference computes each product whole.  At the ideal values a change of format is the identity
  and both products are the exact sum over the contracted axis, row by row, so each tiled product leaves the whole product
  in its result array (Region0 … Region7).  Everything around the products — gather, scaling, scatter-add, bias, clamp — is
  the same operation on both sides and is carried as one function (Layers, Branch); no law of the extended reals beyond
  this identity of sums is used, and no finiteness.  The run is read segment by segment (WholeRun, Carry, HostRead, Values)
  and the reference's generated run is restated in the same vocabulary (RefValue); the idealization rewrote nothing, so
  the preservation claim is trivial.
-/
import proofs.«162428_j26061861552728_1_alg».proof.Defs
import proofs.«162428_j26061861552728_1_alg».proof.Proof.Gen.Kernel
import proofs.«162428_j26061861552728_1_alg».proof.Proof.Gen.Kernel.Frame
import proofs.«162428_j26061861552728_1_alg».proof.Proof.Gen.KernelIdeal
import proofs.«162428_j26061861552728_1_alg».proof.Proof.Gen.KernelIdeal.Frame
import proofs.«162428_j26061861552728_1_alg».proof.Proof.Gen.ReferenceIdeal
import proofs.«162428_j26061861552728_1_alg».proof.Proof.Gen.ReferenceIdeal.Run
import proofs.«162428_j26061861552728_1_alg».proof.Proof.Gen.Pre_finite_inputs
import proofs.«162428_j26061861552728_1_alg».proof.Proof.WholeRun
import proofs.«162428_j26061861552728_1_alg».proof.Proof.Values
import proofs.«162428_j26061861552728_1_alg».proof.Proof.RefValue

set_option maxRecDepth 16384

noncomputable section

namespace Cert.Proof

open Idealize.ShloMosaic Idealize.ShloMosaic.TcCoe Idealize.SL.Sem
open Cert.KernelIdeal.Layers

theorem frame_kernel : Cert.frame_Kernel := fun m ρ _ => Cert.Kernel.Gen.frame m ρ

theorem frame_kernel_ideal : Cert.frame_KernelIdeal := fun m ρ _ => Cert.KernelIdeal.Gen.frame m ρ

/-- The reference has no region: its frame is its run with the results dropped. -/
theorem frame_reference_ideal : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

/-- Both programs end with head (hidden x) of each branch's input in the four result arrays. -/
theorem algebraic : Cert.algebraic_KernelIdeal_ReferenceIdeal := by
  intro m ρ m' ρ' _ hagree
  refine ⟨fun c => head (hidden (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => head (hidden (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => head (hidden (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => head (hidden (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run Cert.KernelIdeal.defs _ _).mono (fun r h c => ?_) (Cert.KernelIdeal.WholeRun.run_all m ρ)
    exact ⟨(Cert.KernelIdeal.WholeRun.read_at m ρ h c Cert.KernelIdeal.main_v52 (by decide)).trans (Cert.KernelIdeal.Values.result0 m ρ c),
      (Cert.KernelIdeal.WholeRun.read_at m ρ h c Cert.KernelIdeal.main_v69 (by decide)).trans (Cert.KernelIdeal.Values.result1 m ρ c),
      (Cert.KernelIdeal.WholeRun.read_at m ρ h c Cert.KernelIdeal.main_v122 (by decide)).trans (Cert.KernelIdeal.Values.result2 m ρ c),
      (Cert.KernelIdeal.WholeRun.read_at m ρ h c Cert.KernelIdeal.main_v139 (by decide)).trans (Cert.KernelIdeal.Values.result3 m ρ c),
      (Cert.KernelIdeal.WholeRun.read_at m ρ h c Cert.KernelIdeal.main_arg0 (by decide)).trans (Cert.KernelIdeal.Gen.W20_main_arg0 m ρ c),
      (Cert.KernelIdeal.WholeRun.read_at m ρ h c Cert.KernelIdeal.main_arg1 (by decide)).trans (Cert.KernelIdeal.Gen.W20_main_arg1 m ρ c),
      (Cert.KernelIdeal.WholeRun.read_at m ρ h c Cert.KernelIdeal.main_arg2 (by decide)).trans (Cert.KernelIdeal.Gen.W20_main_arg2 m ρ c),
      (Cert.KernelIdeal.WholeRun.read_at m ρ h c Cert.KernelIdeal.main_arg3 (by decide)).trans (Cert.KernelIdeal.Gen.W20_main_arg3 m ρ c),
      (Cert.KernelIdeal.WholeRun.read_at m ρ h c Cert.KernelIdeal.main_arg4 (by decide)).trans (Cert.KernelIdeal.Gen.W20_main_arg4 m ρ c),
      (Cert.KernelIdeal.WholeRun.read_at m ρ h c Cert.KernelIdeal.main_arg5 (by decide)).trans (Cert.KernelIdeal.Gen.W20_main_arg5 m ρ c),
      (Cert.KernelIdeal.WholeRun.read_at m ρ h c Cert.KernelIdeal.main_arg6 (by decide)).trans (Cert.KernelIdeal.Gen.W20_main_arg6 m ρ c),
      (Cert.KernelIdeal.WholeRun.read_at m ρ h c Cert.KernelIdeal.main_arg7 (by decide)).trans (Cert.KernelIdeal.Gen.W20_main_arg7 m ρ c),
      (Cert.KernelIdeal.WholeRun.read_at m ρ h c Cert.KernelIdeal.main_arg8 (by decide)).trans (Cert.KernelIdeal.Gen.W20_main_arg8 m ρ c),
      (Cert.KernelIdeal.WholeRun.read_at m ρ h c Cert.KernelIdeal.main_arg9 (by decide)).trans (Cert.KernelIdeal.Gen.W20_main_arg9 m ρ c),
      (Cert.KernelIdeal.WholeRun.read_at m ρ h c Cert.KernelIdeal.main_arg10 (by decide)).trans (Cert.KernelIdeal.Gen.W20_main_arg10 m ρ c),
      (Cert.KernelIdeal.WholeRun.read_at m ρ h c Cert.KernelIdeal.main_arg11 (by decide)).trans (Cert.KernelIdeal.Gen.W20_main_arg11 m ρ c),
      (Cert.KernelIdeal.WholeRun.read_at m ρ h c Cert.KernelIdeal.main_arg12 (by decide)).trans (Cert.KernelIdeal.Gen.W20_main_arg12 m ρ c)⟩
  · refine (θ_run Cert.ReferenceIdeal.defs _ _).mono (fun r h c => ?_) (Cert.ReferenceIdeal.RefValue.run m' ρ')
    obtain ⟨g0, g1, g2, g3, g4, g5, g6, g7, g8, g9, g10, g11, g12⟩ := hagree c
    obtain ⟨r0, r1, r2, r3, rest⟩ := h c
    exact ⟨r0.trans (by rw [g0, g2, g3, g4, g5, g6, g7, g8, g9, g10]), r1.trans (by rw [g0, g2, g3, g4, g5, g6, g7, g8, g11, g12]),
      r2.trans (by rw [g1, g2, g3, g4, g5, g6, g7, g8, g9, g10]), r3.trans (by rw [g1, g2, g3, g4, g5, g6, g7, g8, g11, g12]), rest⟩

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
